-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S64x4096x1 : Shape := ⟨3, ![64, 4096, 1]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S64x4096x1 : S_.BroadcastsInDim S64x4096x1 (![] : Fin 0 → Fin S64x4096x1.rank)
  reducesTo_S64x4096x1_S_d0_1_2 : S64x4096x1.ReducesTo [0, 1, 2] S_

variable [Facts]

def fn {F : FTy → Type} [FloatOps F] (main_arg0 : FVec F S64x4096x256 .f32) (main_arg1 : FVec F S64x4096x1 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S64x4096x1 .f32 := Host.absf main_arg1
  let main_cst_0 : FVec F S_ .f32 := constant S_ .f32 0x7F800000#32
  let main_v5 : FVec F S64x4096x1 .f32 := broadcastInDim S64x4096x1 ![] bcast_S_S64x4096x1 main_cst_0
  let main_v6 : IVec S64x4096x1 1 := cmpf .olt main_v4 main_v5
  let main_c_1 : IVec S_ 1 := constantI S_ 1 1#1
  let main_v7 : IVec S_ 1 := (fun x v => Host.reduce IntOp.andi x v reducesTo_S64x4096x1_S_d0_1_2 h_S_) main_v6 main_c_1
  let main_v8 : IVec S_ 1 := andi main_v3 main_v7
  main_v8
-- ==== Kernel.lean ====
abbrev S64x4096x256 : Shape := ⟨3, ![64, 4096, 256]⟩
abbrev S64x4096x1 : Shape := ⟨3, ![64, 4096, 1]⟩
abbrev S64x1x4096 : Shape := ⟨3, ![64, 1, 4096]⟩
abbrev S64x1x256 : Shape := ⟨3, ![64, 1, 256]⟩
abbrev S2x4096x256 : Shape := ⟨3, ![2, 4096, 256]⟩
abbrev S2x1x4096 : Shape := ⟨3, ![2, 1, 4096]⟩
abbrev S2x1x256 : Shape := ⟨3, ![2, 1, 256]⟩
abbrev S2x1 : Shape := ⟨2, ![2, 1]⟩
abbrev S2x1x1 : Shape := ⟨3, ![2, 1, 1]⟩
abbrev S64x4096 : Shape := ⟨2, ![64, 4096]⟩
abbrev S64x256 : Shape := ⟨2, ![64, 256]⟩

abbrev nBuf : Space → Nat
  | .hbm => 7
  | .vmem => 8
  | .smem => 0
  | _ => 0

abbrev bufTy : (tb : Table) → Fin (tcTables nBuf tb) → BufTy
  | .hbm, ⟨0, _⟩ => ⟨S64x4096x256, .f32⟩
  | .hbm, ⟨1, _⟩ => ⟨S64x4096x1, .f32⟩
  | .hbm, ⟨2, _⟩ => ⟨S64x1x4096, .f32⟩
  | .hbm, ⟨3, _⟩ => ⟨S64x1x4096, .f32⟩
  | .hbm, ⟨4, _⟩ => ⟨S64x1x256, .f32⟩
  | .hbm, ⟨5, _⟩ => ⟨S64x4096, .f32⟩
  | .hbm, ⟨6, _⟩ => ⟨S64x256, .f32⟩
  | .local _ .vmem, ⟨0, _⟩ => ⟨S2x4096x256, .f32⟩
  | .local _ .vmem, ⟨1, _⟩ => ⟨S2x4096x256, .f32⟩
  | .local _ .vmem, ⟨2, _⟩ => ⟨S2x1x4096, .f32⟩
  | .local _ .vmem, ⟨3, _⟩ => ⟨S2x1x4096, .f32⟩
  | .local _ .vmem, ⟨4, _⟩ => ⟨S2x1x4096, .f32⟩
  | .local _ .vmem, ⟨5, _⟩ => ⟨S2x1x4096, .f32⟩
  | .local _ .vmem, ⟨6, _⟩ => ⟨S2x1x256, .f32⟩
  | .local _ .vmem, ⟨7, _⟩ => ⟨S2x1x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x4096x1_S64x1x4096_0_2_1 : S64x4096x1.Transposes [0, 2, 1] S64x1x4096
  inb_S2x4096x256_S2x4096x256_0_0_0 : ∀ a, (![0, 0, 0] : Fin 3 → Nat) a + S2x4096x256.size a ≤ S2x4096x256.size a
  h_S2x4096x256 : 0 < S2x4096x256.numel
  inb_S2x1x4096_S2x1x4096_0_0_0 : ∀ a, (![0, 0, 0] : Fin 3 → Nat) a + S2x1x4096.size a ≤ S2x1x4096.size a
  h_S2x1x4096 : 0 < S2x1x4096.numel
  shapeCasts_S2x1x4096_S2x1x4096 : S2x1x4096.ShapeCasts S2x1x4096
  reduces_S2x1x4096_S2x1 : S2x1x4096.Reduces [2] S2x1
  shapeCasts_S2x1_S2x1x1 : S2x1.ShapeCasts S2x1x1
  broadcasts_S2x1x1_S2x1x4096 : S2x1x1.Broadcasts S2x1x4096
  reduces_S2x1x256_S2x1 : S2x1x256.Reduces [2] S2x1
  broadcasts_S2x1x1_S2x1x256 : S2x1x1.Broadcasts S2x1x256
  inb_S2x1x256_S2x1x256_0_0_0 : ∀ a, (![0, 0, 0] : Fin 3 → Nat) a + S2x1x256.size a ≤ S2x1x256.size a
  h_S2x1x256 : 0 < S2x1x256.numel
  shapeCasts_S64x1x4096_S64x4096 : S64x1x4096.ShapeCasts S64x4096
  shapeCasts_S64x1x256_S64x256 : S64x1x256.ShapeCasts S64x256
  dot_S2x1x4096_S2x4096x256_S2x1x256_2_1_1_2_0_0_wf : DotDims.WF S2x1x4096 S2x4096x256 S2x1x256 [2] [1] [1] [2] [0] [0]
  dot_S2x1x256_S2x4096x256_S2x1x4096_2_2_1_1_0_0_wf : DotDims.WF S2x1x256 S2x4096x256 S2x1x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S64x4096x256.size a
  hwx0_0 : ∀ i : grid0.Coords, EltTy.bits .f32 = 32 ∨ (Rect.block (s := S64x4096x256) S2x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x4096.size a ≤ S64x1x4096.size a
  hwx0_1 : ∀ i : grid0.Coords, EltTy.bits .f32 = 32 ∨ (Rect.block (s := S64x1x4096) S2x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x4096.size a ≤ S64x1x4096.size a
  hwx0_2 : ∀ i : grid0.Coords, EltTy.bits .f32 = 32 ∨ (Rect.block (s := S64x1x4096) S2x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x256.size a ≤ S64x1x256.size a
  hwx0_3 : ∀ i : grid0.Coords, EltTy.bits .f32 = 32 ∨ (Rect.block (s := S64x1x256) S2x1x256.size (cc0_transform_3 i) (hinb0_3 i)).WholeWords (EltTy.packing .f32)

variable [Facts₀]

def dot_S2x1x4096_S2x4096x256_S2x1x256_2_1_1_2_0_0 : DotDims S2x1x4096 S2x4096x256 S2x1x256 where
  lhsContracting := [2]
  rhsContracting := [1]
  lhsNonContracting := [1]
  rhsNonContracting := [2]
  lhsBatch := [0]
  rhsBatch := [0]
  wf := dot_S2x1x4096_S2x4096x256_S2x1x256_2_1_1_2_0_0_wf
def dot_S2x1x256_S2x4096x256_S2x1x4096_2_2_1_1_0_0 : DotDims S2x1x256 S2x4096x256 S2x1x4096 where
  lhsContracting := [2]
  rhsContracting := [2]
  lhsNonContracting := [1]
  rhsNonContracting := [1]
  lhsBatch := [0]
  rhsBatch := [0]
  wf := dot_S2x1x256_S2x4096x256_S2x1x4096_2_2_1_1_0_0_wf

abbrev win0_0 : Pipeline.Window sig grid0 :=
  Pipeline.Window.ofSpec (Memref.whole main_arg0) S2x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S64x4096x1 : Shape := ⟨3, ![64, 4096, 1]⟩
abbrev S_ : Shape := ⟨0, ![]⟩
abbrev S64x1 : Shape := ⟨2, ![64, 1]⟩
abbrev S64x1x1 : Shape := ⟨3, ![64, 1, 1]⟩
abbrev S64x256 : Shape := ⟨2, ![64, 256]⟩
abbrev S64x1x256 : Shape := ⟨3, ![64, 1, 256]⟩
abbrev S64x4096 : Shape := ⟨2, ![64, 4096]⟩

abbrev nBuf : Space → Nat
  | .hbm => 151
  | .vmem => 0
  | .smem => 0
  | _ => 0

abbrev hbmTy0_0 (i : Nat) : BufTy := match i % 128 with
  | 0 => ⟨S64x4096x256, .f32⟩
  | 1 => ⟨S64x4096x1, .f32⟩
  | 2 => ⟨S64x4096x256, .f32⟩
  | 3 => ⟨S64x4096x256, .f32⟩
  | 4 => ⟨S_, .f32⟩
  | 5 => ⟨S64x4096x1, .f32⟩
  | 6 => ⟨S64x4096x1, .f32⟩
  | 7 => ⟨S_, .f32⟩
  | 8 => ⟨S64x1, .f32⟩
  | 9 => ⟨S_, .f32⟩
  | 10 => ⟨S64x1, .f32⟩
  | 11 => ⟨S64x1, .f32⟩
  | 12 => ⟨S64x1x1, .f32⟩
  | 13 => ⟨S64x4096x1, .f32⟩
  | 14 => ⟨S64x4096x1, .f32⟩
  | 15 => ⟨S64x4096x1, .f32⟩
  | 16 => ⟨S_, .f32⟩
  | 17 => ⟨S64x1, .f32⟩
  | 18 => ⟨S64x1x1, .f32⟩
  | 19 => ⟨S64x4096x1, .f32⟩
  | 20 => ⟨S64x4096x1, .f32⟩
  | 21 => ⟨S64x4096x256, .f32⟩
  | 22 => ⟨S64x4096x256, .f32⟩
  | 23 => ⟨S_, .f32⟩
  | 24 => ⟨S64x256, .f32⟩
  | 25 => ⟨S64x1x256, .f32⟩
  | 26 => ⟨S64x1x256, .f32⟩
  | 27 => ⟨S_, .f32⟩
  | 28 => ⟨S64x1, .f32⟩
  | 29 => ⟨S64x1x1, .f32⟩
  | 30 => ⟨S64x1x1, .f32⟩
  | 31 => ⟨S64x1x1, .f32⟩
  | 32 => ⟨S64x1x1, .f32⟩
  | 33 => ⟨S_, .f32⟩
  | 34 => ⟨S64x1x1, .f32⟩
  | 35 => ⟨S64x1x1, .f32⟩
  | 36 => ⟨S64x1x1, .f32⟩
  | 37 => ⟨S_, .f32⟩
  | 38 => ⟨S64x1x1, .f32⟩
  | 39 => ⟨S64x1x1, .f32⟩
  | 40 => ⟨S64x1x1, .f32⟩
  | 41 => ⟨S64x1x256, .f32⟩
  | 42 => ⟨S64x1x256, .f32⟩
  | 43 => ⟨S64x4096x256, .f32⟩
  | 44 => ⟨S64x4096x256, .f32⟩
  | 45 => ⟨S_, .f32⟩
  | 46 => ⟨S64x4096, .f32⟩
  | 47 => ⟨S64x4096x1, .f32⟩
  | 48 => ⟨S64x4096x1, .f32⟩
  | 49 => ⟨S64x4096x1, .f32⟩
  | 50 => ⟨S_, .f32⟩
  | 51 => ⟨S64x1, .f32⟩
  | 52 => ⟨S_, .f32⟩
  | 53 => ⟨S64x1, .f32⟩
  | 54 => ⟨S64x1, .f32⟩
  | 55 => ⟨S64x1x1, .f32⟩
  | 56 => ⟨S64x4096x1, .f32⟩
  | 57 => ⟨S64x4096x1, .f32⟩
  | 58 => ⟨S64x4096x1, .f32⟩
  | 59 => ⟨S_, .f32⟩
  | 60 => ⟨S64x1, .f32⟩
  | 61 => ⟨S64x1x1, .f32⟩
  | 62 => ⟨S64x4096x1, .f32⟩
  | 63 => ⟨S64x4096x1, .f32⟩
  | 64 => ⟨S64x4096x256, .f32⟩
  | 65 => ⟨S64x4096x256, .f32⟩
  | 66 => ⟨S_, .f32⟩
  | 67 => ⟨S64x256, .f32⟩
  | 68 => ⟨S64x1x256, .f32⟩
  | 69 => ⟨S64x1x256, .f32⟩
  | 70 => ⟨S_, .f32⟩
  | 71 => ⟨S64x1, .f32⟩
  | 72 => ⟨S64x1x1, .f32⟩
  | 73 => ⟨S64x1x1, .f32⟩
  | 74 => ⟨S64x1x1, .f32⟩
  | 75 => ⟨S64x1x1, .f32⟩
  | 76 => ⟨S_, .f32⟩
  | 77 => ⟨S64x1x1, .f32⟩
  | 78 => ⟨S64x1x1, .f32⟩
  | 79 => ⟨S64x1x1, .f32⟩
  | 80 => ⟨S_, .f32⟩
  | 81 => ⟨S64x1x1, .f32⟩
  | 82 => ⟨S64x1x1, .f32⟩
  | 83 => ⟨S64x1x1, .f32⟩
  | 84 => ⟨S64x1x256, .f32⟩
  | 85 => ⟨S64x1x256, .f32⟩
  | 86 => ⟨S64x4096x256, .f32⟩
  | 87 => ⟨S64x4096x256, .f32⟩
  | 88 => ⟨S_, .f32⟩
  | 89 => ⟨S64x4096, .f32⟩
  | 90 => ⟨S64x4096x1, .f32⟩
  | 91 => ⟨S64x4096x1, .f32⟩
  | 92 => ⟨S64x4096x1, .f32⟩
  | 93 => ⟨S_, .f32⟩
  | 94 => ⟨S64x1, .f32⟩
  | 95 => ⟨S_, .f32⟩
  | 96 => ⟨S64x1, .f32⟩
  | 97 => ⟨S64x1, .f32⟩
  | 98 => ⟨S64x1x1, .f32⟩
  | 99 => ⟨S64x4096x1, .f32⟩
  | 100 => ⟨S64x4096x1, .f32⟩
  | 101 => ⟨S64x4096x1, .f32⟩
  | 102 => ⟨S_, .f32⟩
  | 103 => ⟨S64x1, .f32⟩
  | 104 => ⟨S64x1x1, .f32⟩
  | 105 => ⟨S64x4096x1, .f32⟩
  | 106 => ⟨S64x4096x1, .f32⟩
  | 107 => ⟨S64x4096x256, .f32⟩
  | 108 => ⟨S64x4096x256, .f32⟩
  | 109 => ⟨S_, .f32⟩
  | 110 => ⟨S64x256, .f32⟩
  | 111 => ⟨S64x1x256, .f32⟩
  | 112 => ⟨S64x1x256, .f32⟩
  | 113 => ⟨S_, .f32⟩
  | 114 => ⟨S64x1, .f32⟩
  | 115 => ⟨S64x1x1, .f32⟩
  | 116 => ⟨S64x1x1, .f32⟩
  | 117 => ⟨S64x1x1, .f32⟩
  | 118 => ⟨S64x1x1, .f32⟩
  | 119 => ⟨S_, .f32⟩
  | 120 => ⟨S64x1x1, .f32⟩
  | 121 => ⟨S64x1x1, .f32⟩
  | 122 => ⟨S64x1x1, .f32⟩
  | 123 => ⟨S_, .f32⟩
  | 124 => ⟨S64x1x1, .f32⟩
  | 125 => ⟨S64x1x1, .f32⟩
  | 126 => ⟨S64x1x1, .f32⟩
  | 127 => ⟨S64x1x256, .f32⟩
  | _ => ⟨S64x4096x256, .f32⟩

abbrev hbmTy0_1 (i : Nat) : BufTy := match i % 128 with
  | 0 => ⟨S64x1x256, .f32⟩
  | 1 => ⟨S64x4096x256, .f32⟩
  | 2 => ⟨S64x4096x256, .f32⟩
  | 3 => ⟨S_, .f32⟩
  | 4 => ⟨S64x4096, .f32⟩
  | 5 => ⟨S64x4096x1, .f32⟩
  | 6 => ⟨S64x4096x1, .f32⟩
  | 7 => ⟨S_, .f32⟩
  | 8 => ⟨S64x1, .f32⟩
  | 9 => ⟨S_, .f32⟩
  | 10 => ⟨S64x1, .f32⟩
  | 11 => ⟨S64x1, .f32⟩
  | 12 => ⟨S64x1x1, .f32⟩
  | 13 => ⟨S64x4096x1, .f32⟩
  | 14 => ⟨S64x4096x1, .f32⟩
  | 15 => ⟨S64x4096x1, .f32⟩
  | 16 => ⟨S_, .f32⟩
  | 17 => ⟨S64x1, .f32⟩
  | 18 => ⟨S64x1x1, .f32⟩
  | 19 => ⟨S64x4096x1, .f32⟩
  | 20 => ⟨S64x4096x1, .f32⟩
  | 21 => ⟨S64x256, .f32⟩
  | 22 => ⟨S64x4096, .f32⟩
  | _ => ⟨S64x4096x256, .f32⟩

abbrev hbmTy (i : Nat) : BufTy := match i / 128 with
  | 0 => hbmTy0_0 i
  | 1 => hbmTy0_1 i
  | _ => ⟨S64x4096x256, .f32⟩

abbrev bufTy : (tb : Table) → Fin (tcTables nBuf tb) → BufTy
  | .hbm, ⟨i, _⟩ => hbmTy i
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_call1_v0 : Ref sig .tc := ⟨.hbm, 69, rfl⟩
abbrev main_call1_cst : Ref sig .tc := ⟨.hbm, 70, rfl⟩
abbrev main_call1_v1 : Ref sig .tc := ⟨.hbm, 71, rfl⟩
abbrev main_call1_v2 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_call2_v0 : Ref sig .tc := ⟨.hbm, 112, rfl⟩
abbrev main_call2_cst : Ref sig .tc := ⟨.hbm, 113, rfl⟩
abbrev main_call2_v1 : Ref sig .tc := ⟨.hbm, 114, rfl⟩
abbrev main_call2_v2 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_cst_22 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]

class Facts₀ : Prop where
  bcast_S64x4096x1_S64x4096x256_0_1_2 : S64x4096x1.BroadcastsInDim S64x4096x256 (![0, 1, 2] : Fin 3 → Fin S64x4096x256.rank)
  bcast_S_S64x4096x1 : S_.BroadcastsInDim S64x4096x1 (![] : Fin 0 → Fin S64x4096x1.rank)
  reducesTo_S64x4096x1_S64x1_d1 : S64x4096x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  reducesTo_S64x4096x256_S64x256_d1 : S64x4096x256.ReducesTo [1] S64x256
  bcast_S64x256_S64x1x256_0_2 : S64x256.BroadcastsInDim S64x1x256 (![0, 2] : Fin 2 → Fin S64x1x256.rank)
  reducesTo_S64x1x256_S64x1_d2 : S64x1x256.ReducesTo [2] S64x1
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S64x1x1_S64x1x256_0_1_2 : S64x1x1.BroadcastsInDim S64x1x256 (![0, 1, 2] : Fin 3 → Fin S64x1x256.rank)
  bcast_S64x1x256_S64x4096x256_0_1_2 : S64x1x256.BroadcastsInDim S64x4096x256 (![0, 1, 2] : Fin 3 → Fin S64x4096x256.rank)
  reducesTo_S64x4096x256_S64x4096_d2 : S64x4096x256.ReducesTo [2] S64x4096
  bcast_S64x4096_S64x4096x1_0_1 : S64x4096.BroadcastsInDim S64x4096x1 (![0, 1] : Fin 2 → Fin S64x4096x1.rank)
  shapeCasts_S64x1x256_S64x256 : S64x1x256.ShapeCasts S64x256
  shapeCasts_S64x4096x1_S64x4096 : S64x4096x1.ShapeCasts S64x4096

variable [Facts₀]

class Facts : Prop extends Facts₀ where

variable [Facts]
-- ==== Proof.RoutingDefs.lean ====
/-
  Dynamic routing by agreement, as both programs compute it at the extended reals, for ONE sample: a row of
  masks `m : ι → EReal` (one per input capsule) and the capsule vectors `x : ι → κ → EReal`.
  From logits `b` one round takes the softmax `w` of `m · b`, the masked weighted sum `σ_d = Σ_n w_n · m_n · x_{n,d}`,
  its squashing `s = (|σ|² / (1 + |σ|²)) / (|σ| + ε) · σ`, and the new logits `b_n + m_n · Σ_d s_d · x_{n,d}`.
  The two programs differ in three places only: where the mask multiplies (`(w·m)·x` against `w·(m·x)`), whether the squared
  norm is the sum of squares or the square of its root, and whether the mask multiplies the agreement sum or each of its terms.
  This module only states the two spellings; that they agree on finite inputs is proved beside it.
-/
import Idealize.ShloMosaic.PureOps.Ideal.Laws

noncomputable section

namespace Cert.Routing

open Idealize.ShloMosaic

variable {ι κ : Type} [Fintype ι] [Fintype κ]

/-- The squashing's small constant, as the f32 pattern both programs carry. -/
def eps : EReal := Ideal.ofBits .f32 0x322BCC77#32

/-- The value a maximum starts from: the f32 pattern of minus infinity. -/
def negInf : EReal := Ideal.ofBits .f32 0xFF800000#32

/-- An extended real that is a real number. -/
def IsReal (a : EReal) : Prop := ∃ r : ℝ, a = (r : EReal)

/-- The maximum of a row, from minus infinity. -/
def rowMax (z : ι → EReal) : EReal := (Finset.univ : Finset ι).fold max negInf z

/-- The softmax of a row, shifted by its maximum. -/
def softmax (z : ι → EReal) (n : ι) : EReal :=
  Ideal.div (Ideal.exp (z n - rowMax z)) (∑ k, Ideal.exp (z k - rowMax z))

/-! ### One round as the kernel spells it -/

/-- The masked weighted sum, the mask folded into the weights. -/
def sigmaK (m : ι → EReal) (x : ι → κ → EReal) (b : ι → EReal) (d : κ) : EReal :=
  ∑ n, (softmax (fun k => m k * b k) n * m n) * x n d

/-- The squashed vector: the squared norm is the sum of squares. -/
def squashK (σ : κ → EReal) (d : κ) : EReal :=
  Ideal.div (Ideal.div (∑ e, σ e * σ e) (1 + ∑ e, σ e * σ e)) (Ideal.sqrt (∑ e, σ e * σ e) + eps) * σ d

/-- The round's output vector. -/
def sK (m : ι → EReal) (x : ι → κ → EReal) (b : ι → EReal) : κ → EReal := squashK (sigmaK m x b)

/-- The round's new logits: the mask times the agreement sum. -/
def bK (m : ι → EReal) (x : ι → κ → EReal) (b : ι → EReal) (n : ι) : EReal :=
  b n + m n * ∑ d, sK m x b d * x n d

/-! ### One round as the reference spells it -/

/-- The masked weighted sum, the mask folded into the vectors. -/
def sigmaR (m : ι → EReal) (x : ι → κ → EReal) (b : ι → EReal) (d : κ) : EReal :=
  ∑ n, softmax (fun k => m k * b k) n * (m n * x n d)

/-- The squashed vector: the squared norm is the square of the norm. -/
def squashR (σ : κ → EReal) (d : κ) : EReal :=
  Ideal.div (Ideal.div (Ideal.sqrt (∑ e, σ e * σ e) * Ideal.sqrt (∑ e, σ e * σ e))
      (1 + Ideal.sqrt (∑ e, σ e * σ e) * Ideal.sqrt (∑ e, σ e * σ e)))
    (Ideal.sqrt (∑ e, σ e * σ e) + eps) * σ d

/-- The round's output vector. -/
def sR (m : ι → EReal) (x : ι → κ → EReal) (b : ι → EReal) : κ → EReal := squashR (sigmaR m x b)

/-- The round's new logits: the agreement sum over the masked vectors. -/
def bR (m : ι → EReal) (x : ι → κ → EReal) (b : ι → EReal) (n : ι) : EReal :=
  b n + ∑ d, sR m x b d * (m n * x n d)

/-! ### Three rounds from zero logits -/

/-- The final coupling weights, the kernel's spelling. -/
def wOutK (m : ι → EReal) (x : ι → κ → EReal) : ι → EReal :=
  softmax (bK m x (bK m x (bK m x fun _ => 0)))
/-- The last round's output vector, the kernel's spelling. -/
def sOutK (m : ι → EReal) (x : ι → κ → EReal) : κ → EReal :=
  sK m x (bK m x (bK m x fun _ => 0))
/-- The final coupling weights, the reference's spelling. -/
def wOutR (m : ι → EReal) (x : ι → κ → EReal) : ι → EReal :=
  softmax (bR m x (bR m x (bR m x fun _ => 0)))
/-- The last round's output vector, the reference's spelling. -/
def sOutR (m : ι → EReal) (x : ι → κ → EReal) : κ → EReal :=
  sR m x (bR m x (bR m x fun _ => 0))

end Cert.Routing

end
-- ==== Proof.RoutingMath.lean ====
/-
  The two spellings of dynamic routing agree on real inputs.

  Every quantity of a round is a real number when the masks, the vectors and the logits are: the row maximum is one of the
  row's entries, the softmax denominator is a sum of positive reals, `1 + |σ|²` and `|σ| + ε` are positive.  On reals the
  three differences between the spellings are associativity of the product, `√q · √q = q` for `q ≥ 0`, and distributivity of
  a factor over a finite sum.  Distributivity fails at the infinities of the extended reals, so that step is carried out in `ℝ`.
-/
import proofs.«102877_j26946624815393_2_alg».proof.Proof.RoutingDefs

noncomputable section

namespace Cert.Routing

open Idealize.ShloMosaic

variable {ι κ : Type} [Fintype ι] [Fintype κ]

/-! ### The two constants -/

/-- The starting value of a maximum is minus infinity. -/
theorem negInf_eq : negInf = ⊥ := by
  simp [negInf, Ideal.ofBits, Ideal.ieee]

/-- The squashing's constant is a positive real. -/
theorem eps_pos : ∃ e : ℝ, 0 < e ∧ eps = (e : EReal) := by
  simp [eps, Ideal.ofBits, Ideal.ieee, -EReal.coe_mul]

/-! ### Real numbers inside the extended reals -/

/-- The coercion commutes with finite sums. -/
theorem coe_sum {α : Type} (s : Finset α) (f : α → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_coe (r : ℝ) : IsReal (r : EReal) := ⟨r, rfl⟩

theorem isReal_zero : IsReal (0 : EReal) := ⟨0, EReal.coe_zero.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem isReal_sum {α : Type} (s : Finset α) (f : α → EReal) (h : ∀ i, IsReal (f i)) :
    IsReal (∑ i ∈ s, f i) := by
  choose g hg using h
  exact ⟨∑ i ∈ s, g i, by rw [coe_sum]; exact Finset.sum_congr rfl (fun i _ => hg i)⟩

/-! ### The softmax of a real row -/

/-- The maximum of a nonempty row is one of its entries. -/
theorem rowMax_mem [Nonempty ι] (z : ι → EReal) : ∃ i, rowMax z = z i := by
  have h : rowMax z = Finset.univ.sup z := by
    rw [rowMax, negInf_eq]; rfl
  obtain ⟨i, -, hi⟩ := Finset.exists_mem_eq_sup Finset.univ Finset.univ_nonempty z
  exact ⟨i, h.trans hi⟩

/-- The softmax of a nonempty real row is real: its denominator is a sum of positive reals. -/
theorem isReal_softmax [Nonempty ι] {z : ι → EReal} (hz : ∀ n, IsReal (z n)) (n : ι) :
    IsReal (softmax z n) := by
  obtain ⟨i, hi⟩ := rowMax_mem z
  obtain ⟨M, hM⟩ : IsReal (rowMax z) := hi ▸ hz i
  choose zr hzr using hz
  have hexp : ∀ k, Ideal.exp (z k - rowMax z) = ((Real.exp (zr k - M) : ℝ) : EReal) := by
    intro k
    rw [hzr k, hM, ← EReal.coe_sub, Ideal.exp_coe]
  have hpos : (0 : ℝ) < ∑ k, Real.exp (zr k - M) :=
    Finset.sum_pos (fun k _ => Real.exp_pos _) Finset.univ_nonempty
  unfold softmax
  simp only [hexp]
  rw [← coe_sum, Ideal.div_coe hpos.ne', ← EReal.coe_mul]
  exact ⟨_, rfl⟩

/-! ### The squashing of a real vector -/

/-- On a real vector the two squashings agree, since `√q · √q = q` for `q = |σ|² ≥ 0`, and give a real vector. -/
theorem squash_real (t : κ → ℝ) :
    squashK (fun e => (t e : EReal)) = squashR (fun e => (t e : EReal)) ∧
      ∀ d, IsReal (squashK (fun e => (t e : EReal)) d) := by
  obtain ⟨ε, hε, heps⟩ := eps_pos
  have hq0 : 0 ≤ ∑ e, t e * t e := Finset.sum_nonneg (fun e _ => mul_self_nonneg _)
  generalize hq : ∑ e, t e * t e = q at hq0
  have hsum : (∑ e, (t e : EReal) * (t e : EReal)) = (q : EReal) := by
    rw [← hq, coe_sum]
    exact Finset.sum_congr rfl (fun e _ => (EReal.coe_mul _ _).symm)
  have hsqrt : Ideal.sqrt (q : EReal) = ((Real.sqrt q : ℝ) : EReal) := by
    rw [Ideal.sqrt_coe, if_neg (not_lt.mpr hq0)]
  have hss : ((Real.sqrt q : ℝ) : EReal) * ((Real.sqrt q : ℝ) : EReal) = (q : EReal) := by
    rw [← EReal.coe_mul, Real.mul_self_sqrt hq0]
  constructor
  · funext d
    simp only [squashK, squashR, hsum, hsqrt, hss]
  · intro d
    have h1 : (1 : EReal) + (q : EReal) = ((1 + q : ℝ) : EReal) := by
      rw [EReal.coe_add, EReal.coe_one]
    have h2 : ((Real.sqrt q : ℝ) : EReal) + eps = ((Real.sqrt q + ε : ℝ) : EReal) := by
      rw [heps, EReal.coe_add]
    have h1' : (1 + q : ℝ) ≠ 0 := by
      have : (0 : ℝ) < 1 + q := by linarith
      exact this.ne'
    have h2' : (Real.sqrt q + ε : ℝ) ≠ 0 := by
      have : (0 : ℝ) < Real.sqrt q + ε := by
        have := Real.sqrt_nonneg q
        linarith
      exact this.ne'
    simp only [squashK, hsum, hsqrt]
    rw [h1, h2, Ideal.div_coe h1', Ideal.div_coe h2', ← EReal.coe_mul, ← EReal.coe_mul, ← EReal.coe_mul]
    exact ⟨_, rfl⟩

/-! ### One round -/

/-- The masked weighted sums agree: the product is associative. -/
theorem sigma_eq (m : ι → EReal) (x : ι → κ → EReal) (b : ι → EReal) : sigmaK m x b = sigmaR m x b := by
  funext d
  exact Finset.sum_congr rfl (fun n _ => mul_assoc _ _ _)

/-- The masked weighted sum of real data is real. -/
theorem isReal_sigmaR [Nonempty ι] {m : ι → EReal} {x : ι → κ → EReal} {b : ι → EReal}
    (hm : ∀ n, IsReal (m n)) (hx : ∀ n d, IsReal (x n d)) (hb : ∀ n, IsReal (b n)) (d : κ) :
    IsReal (sigmaR m x b d) :=
  isReal_sum _ _ (fun n => (isReal_softmax (fun k => (hm k).mul (hb k)) n).mul ((hm n).mul (hx n d)))

/-- The output vectors of a round agree on real data, and are real. -/
theorem s_eq [Nonempty ι] {m : ι → EReal} {x : ι → κ → EReal} {b : ι → EReal}
    (hm : ∀ n, IsReal (m n)) (hx : ∀ n d, IsReal (x n d)) (hb : ∀ n, IsReal (b n)) :
    sK m x b = sR m x b ∧ ∀ d, IsReal (sK m x b d) := by
  choose t ht using isReal_sigmaR hm hx hb
  have h : sigmaR m x b = fun e => (t e : EReal) := funext ht
  unfold sK sR
  rw [sigma_eq, h]
  exact squash_real t

/-- The new logits of a round agree on real data, and are real: in `ℝ` the mask distributes over the agreement sum. -/
theorem b_eq [Nonempty ι] {m : ι → EReal} {x : ι → κ → EReal} {b : ι → EReal}
    (hm : ∀ n, IsReal (m n)) (hx : ∀ n d, IsReal (x n d)) (hb : ∀ n, IsReal (b n)) :
    bK m x b = bR m x b ∧ ∀ n, IsReal (bK m x b n) := by
  obtain ⟨hs, hsr⟩ := s_eq hm hx hb
  choose sr hsr using hsr
  choose mr hmr using hm
  choose xr hxr using hx
  choose br hbr using hb
  have hK : ∀ n, bK m x b n = ((br n + mr n * ∑ d, sr d * xr n d : ℝ) : EReal) := by
    intro n
    simp only [bK, hsr, hmr, hxr, hbr]
    simp only [← EReal.coe_mul, ← coe_sum, ← EReal.coe_add]
  have hR : ∀ n, bR m x b n = ((br n + ∑ d, sr d * (mr n * xr n d) : ℝ) : EReal) := by
    intro n
    simp only [bR, ← hs, hsr, hmr, hxr, hbr]
    simp only [← EReal.coe_mul, ← coe_sum, ← EReal.coe_add]
  constructor
  · funext n
    rw [hK, hR, Finset.mul_sum]
    congr 2
    exact Finset.sum_congr rfl (fun d _ => mul_left_comm _ _ _)
  · intro n
    exact ⟨_, hK n⟩

/-! ### Three rounds -/

/-- Three rounds from zero logits give the same coupling weights and the same output vector in both spellings. -/
theorem routing_eq {ι κ : Type} [Fintype ι] [Fintype κ] [Nonempty ι] (m : ι → EReal) (x : ι → κ → EReal)
    (hm : ∀ n, IsReal (m n)) (hx : ∀ n d, IsReal (x n d)) :
    wOutK m x = wOutR m x ∧ sOutK m x = sOutR m x := by
  have h0 : ∀ n : ι, IsReal ((fun _ => (0 : EReal)) n) := fun _ => isReal_zero
  obtain ⟨e1, r1⟩ := b_eq hm hx h0
  obtain ⟨e2, r2⟩ := b_eq hm hx r1
  obtain ⟨e3, -⟩ := b_eq hm hx r2
  obtain ⟨e4, -⟩ := s_eq hm hx r2
  constructor
  · unfold wOutK wOutR
    rw [← e1, ← e2, ← e3]
  · unfold sOutK sOutR
    rw [← e1, ← e2, e4]

end Cert.Routing

end
-- ==== Proof.RoutingBatch.lean ====
/-
  What both programs return, for the whole batch: from the vectors `x0 : [64, 4096, 256]` and the masks `x1 : [64, 4096, 1]`,
  sample `β`'s masks are `n ↦ x1[β, n, 0]` and its vectors `(n, d) ↦ x0[β, n, d]`; the first result, `[64, 4096]`, holds each
  sample's final coupling weights, the second, `[64, 256]`, each sample's last output vector — here in the kernel's spelling
  of a routing round.
-/
import proofs.«102877_j26946624815393_2_alg».proof.Proof.RoutingDefs
import Idealize.ShloMosaic.Lib.ValueIdx

noncomputable section

namespace Cert.Routing

open Idealize.ShloMosaic Idealize.ShloMosaic.ValueIdx

/-- Sample `β`'s masks. -/
def maskOf (x1 : (⟨3, ![64, 4096, 1]⟩ : Shape).Idx → EReal) (β : Fin 64) : Fin 4096 → EReal :=
  fun k => x1 (ix3 β k (0 : Fin 1))

/-- Sample `β`'s vectors. -/
def vecsOf (x0 : (⟨3, ![64, 4096, 256]⟩ : Shape).Idx → EReal) (β : Fin 64) : Fin 4096 → Fin 256 → EReal :=
  fun k d => x0 (ix3 β k d)

/-- The coupling weights of every sample. -/
def GW (x0 : (⟨3, ![64, 4096, 256]⟩ : Shape).Idx → EReal) (x1 : (⟨3, ![64, 4096, 1]⟩ : Shape).Idx → EReal) :
    (⟨2, ![64, 4096]⟩ : Shape).Idx → EReal :=
  fun i => wOutK (maskOf x1 ⟨(i 0).val, (i 0).isLt⟩) (vecsOf x0 ⟨(i 0).val, (i 0).isLt⟩) ⟨(i 1).val, (i 1).isLt⟩

/-- The output vector of every sample. -/
def GS (x0 : (⟨3, ![64, 4096, 256]⟩ : Shape).Idx → EReal) (x1 : (⟨3, ![64, 4096, 1]⟩ : Shape).Idx → EReal) :
    (⟨2, ![64, 256]⟩ : Shape).Idx → EReal :=
  fun i => sOutK (maskOf x1 ⟨(i 0).val, (i 0).isLt⟩) (vecsOf x0 ⟨(i 0).val, (i 0).isLt⟩) ⟨(i 1).val, (i 1).isLt⟩

theorem GW_apply (x0 : (⟨3, ![64, 4096, 256]⟩ : Shape).Idx → EReal) (x1 : (⟨3, ![64, 4096, 1]⟩ : Shape).Idx → EReal)
    (β : Fin 64) (n : Fin 4096) : GW x0 x1 (ix2 β n) = wOutK (maskOf x1 β) (vecsOf x0 β) n := rfl

theorem GS_apply (x0 : (⟨3, ![64, 4096, 256]⟩ : Shape).Idx → EReal) (x1 : (⟨3, ![64, 4096, 1]⟩ : Shape).Idx → EReal)
    (β : Fin 64) (d : Fin 256) : GS x0 x1 (ix2 β d) = sOutK (maskOf x1 β) (vecsOf x0 β) d := rfl

end Cert.Routing

end
-- ==== Proof.PreFinite.lean ====
/-
  The precondition says that both argument arrays hold finite numbers: each `jnp.all(|a| < +inf)` is a conjunction over
  every element, the comparison is the order of the extended reals, and an extended real whose absolute value
  `max a (-a)` is below `⊤` is neither `⊤` nor `⊥`: it is a real number.
-/
import proofs.«102877_j26946624815393_2_alg».proof.Pre_finite_inputs
import proofs.«102877_j26946624815393_2_alg».proof.Proof.Gen.Pre_finite_inputs
import proofs.«102877_j26946624815393_2_alg».proof.Proof.RoutingDefs
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs Cert.Pre_finite_inputs.Gen Cert.Routing

instance : Subsingleton S_.Idx := ⟨fun a b => funext fun d => d.elim0⟩

/-- An extended real whose absolute value compares below the pattern of plus infinity is a real number. -/
theorem isReal_of_abs_lt (a : EReal)
    (h : FloatOps.cmpf (F := Ideal) (φ := .f32) .olt (FloatOps.hostAbsf a) (FloatOps.ofBits .f32 0x7F800000#32) = 1#1) : IsReal a := by
  have htop : Ideal.ofBits .f32 0x7F800000#32 = ⊤ := by simp [Ideal.ofBits, Ideal.ieee]
  have h' : Ideal.cmp .olt (max a (-a)) (Ideal.ofBits .f32 0x7F800000#32) = 1#1 := h
  rw [htop] at h'
  induction a using EReal.rec with
  | bot => exact absurd h' (by simp [Ideal.cmp])
  | top => exact absurd h' (by simp [Ideal.cmp])
  | coe r => exact ⟨r, rfl⟩

/-- Under the precondition every element of both arrays is a real number. -/
theorem isReal_of_pre (a0 : FVec Ideal S64x4096x256 .f32) (a1 : FVec Ideal S64x4096x1 .f32)
    (h : Cert.Pre_finite_inputs.fn (F := Ideal) a0 a1 = fun _ => 1#1) :
    (∀ i, IsReal (a0 i)) ∧ (∀ i, IsReal (a1 i)) := by
  have h0 := congrFun h ValueIdx.ix0
  dsimp only [fn] at h0
  obtain ⟨e0, e1⟩ := IntOp.andi_eq_one.1 h0
  exact ⟨fun i => isReal_of_abs_lt (a0 i) (Host.reduce_andi_all _ _ _ _ _ e0 i),
    fun i => isReal_of_abs_lt (a1 i) (Host.reduce_andi_all _ _ _ _ _ e1 i)⟩

end Cert.Pre_finite_inputs.Finite

end
-- ==== Proof.RefValue.lean ====
/-
  The reference program read at an index, for one sample `β`: its two results are the final coupling weights and the
  last round's output vector of three rounds of routing by agreement from zero logits, in the reference's spelling
  (RoutingDefs.lean `wOutR`, `sOutR`), of the sample's masks `k ↦ x1[β, k, 0]` and vectors `(k, d) ↦ x0[β, k, d]`.

  The program repeats four array-level pieces: a softmax along axis 1 of a `[64, 4096, 1]` array (four times), the
  weighted sum along axis 1, the squashing of a `[64, 1, 256]` array, and the agreement sum along axis 2 (three times
  each). Each piece is stated here once as a function of its operands, mirroring the program's operations one for one,
  and read at an index once; the program's buffers are those pieces of earlier buffers by unfolding definitions.
-/
import proofs.«102877_j26946624815393_2_alg».proof.Proof.RefRead
import proofs.«102877_j26946624815393_2_alg».proof.Proof.RoutingDefs
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP Cert.Routing
open Idealize.ShloMosaic.StableHlo

/-! ## Layout operations at an index built from coordinates -/

section Layout
variable {α : Type}

/-- A scalar broadcast to `[64, 1]`. -/
theorem bc_S_S64x1 (y : S_.Idx → α) (j : S64x1.Idx) : broadcastInDim S64x1 ![] bcast_S_S64x1 y j = y ix0 :=
  broadcastInDim_scalar_apply _ y j
/-- A scalar broadcast to `[64, 1, 1]`. -/
theorem bc_S_S64x1x1 (y : S_.Idx → α) (j : S64x1x1.Idx) : broadcastInDim S64x1x1 ![] bcast_S_S64x1x1 y j = y ix0 :=
  broadcastInDim_scalar_apply _ y j
/-- A scalar broadcast to `[64, 4096, 1]`. -/
theorem bc_S_S64x4096x1 (y : S_.Idx → α) (j : S64x4096x1.Idx) : broadcastInDim S64x4096x1 ![] bcast_S_S64x4096x1 y j = y ix0 :=
  broadcastInDim_scalar_apply _ y j

/-- `[64, 1] → [64, 1, 1]` along axes 0 and 2. -/
theorem bc_S64x1_S64x1x1_02 (y : S64x1.Idx → α) (β : Fin 64) (a c : Fin 1) :
    broadcastInDim S64x1x1 ![0, 2] bcast_S64x1_S64x1x1_0_2 y (ix3 β a c) = y (ix2 β (0 : Fin 1)) :=
  broadcastInDim_apply _ bcast_S64x1_S64x1x1_0_2 y _ (ix2 β (0 : Fin 1)) (fun i => match i with
    | ⟨0, _⟩ => by show β.val = if (64 : Nat) = 1 then 0 else β.val; rw [if_neg (by decide)]
    | ⟨1, _⟩ => by show 0 = if (1 : Nat) = 1 then 0 else c.val; rw [if_pos rfl])
/-- `[64, 1] → [64, 1, 1]` along axes 0 and 1. -/
theorem bc_S64x1_S64x1x1_01 (y : S64x1.Idx → α) (β : Fin 64) (a c : Fin 1) :
    broadcastInDim S64x1x1 ![0, 1] bcast_S64x1_S64x1x1_0_1 y (ix3 β a c) = y (ix2 β (0 : Fin 1)) :=
  broadcastInDim_apply _ bcast_S64x1_S64x1x1_0_1 y _ (ix2 β (0 : Fin 1)) (fun i => match i with
    | ⟨0, _⟩ => by show β.val = if (64 : Nat) = 1 then 0 else β.val; rw [if_neg (by decide)]
    | ⟨1, _⟩ => by show 0 = if (1 : Nat) = 1 then 0 else a.val; rw [if_pos rfl])
/-- `[64, 1, 1] → [64, 4096, 1]`. -/
theorem bc_S64x1x1_S64x4096x1 (y : S64x1x1.Idx → α) (β : Fin 64) (n : Fin 4096) (c : Fin 1) :
    broadcastInDim S64x4096x1 ![0, 1, 2] bcast_S64x1x1_S64x4096x1_0_1_2 y (ix3 β n c) = y (ix3 β (0 : Fin 1) (0 : Fin 1)) :=
  broadcastInDim_apply _ bcast_S64x1x1_S64x4096x1_0_1_2 y _ (ix3 β (0 : Fin 1) (0 : Fin 1)) (fun i => match i with
    | ⟨0, _⟩ => by show β.val = if (64 : Nat) = 1 then 0 else β.val; rw [if_neg (by decide)]
    | ⟨1, _⟩ => by show 0 = if (1 : Nat) = 1 then 0 else n.val; rw [if_pos rfl]
    | ⟨2, _⟩ => by show 0 = if (1 : Nat) = 1 then 0 else c.val; rw [if_pos rfl])
/-- `[64, 4096, 1] → [64, 4096, 256]`. -/
theorem bc_S64x4096x1_S64x4096x256 (y : S64x4096x1.Idx → α) (β : Fin 64) (n : Fin 4096) (d : Fin 256) :
    broadcastInDim S64x4096x256 ![0, 1, 2] bcast_S64x4096x1_S64x4096x256_0_1_2 y (ix3 β n d) = y (ix3 β n (0 : Fin 1)) :=
  broadcastInDim_apply _ bcast_S64x4096x1_S64x4096x256_0_1_2 y _ (ix3 β n (0 : Fin 1)) (fun i => match i with
    | ⟨0, _⟩ => by show β.val = if (64 : Nat) = 1 then 0 else β.val; rw [if_neg (by decide)]
    | ⟨1, _⟩ => by show n.val = if (4096 : Nat) = 1 then 0 else n.val; rw [if_neg (by decide)]
    | ⟨2, _⟩ => by show 0 = if (1 : Nat) = 1 then 0 else d.val; rw [if_pos rfl])
/-- `[64, 256] → [64, 1, 256]` along axes 0 and 2. -/
theorem bc_S64x256_S64x1x256 (y : S64x256.Idx → α) (β : Fin 64) (a : Fin 1) (d : Fin 256) :
    broadcastInDim S64x1x256 ![0, 2] bcast_S64x256_S64x1x256_0_2 y (ix3 β a d) = y (ix2 β d) :=
  broadcastInDim_apply _ bcast_S64x256_S64x1x256_0_2 y _ (ix2 β d) (fun i => match i with
    | ⟨0, _⟩ => by show β.val = if (64 : Nat) = 1 then 0 else β.val; rw [if_neg (by decide)]
    | ⟨1, _⟩ => by show d.val = if (256 : Nat) = 1 then 0 else d.val; rw [if_neg (by decide)])
/-- `[64, 1, 1] → [64, 1, 256]`. -/
theorem bc_S64x1x1_S64x1x256 (y : S64x1x1.Idx → α) (β : Fin 64) (a : Fin 1) (d : Fin 256) :
    broadcastInDim S64x1x256 ![0, 1, 2] bcast_S64x1x1_S64x1x256_0_1_2 y (ix3 β a d) = y (ix3 β (0 : Fin 1) (0 : Fin 1)) :=
  broadcastInDim_apply _ bcast_S64x1x1_S64x1x256_0_1_2 y _ (ix3 β (0 : Fin 1) (0 : Fin 1)) (fun i => match i with
    | ⟨0, _⟩ => by show β.val = if (64 : Nat) = 1 then 0 else β.val; rw [if_neg (by decide)]
    | ⟨1, _⟩ => by show 0 = if (1 : Nat) = 1 then 0 else a.val; rw [if_pos rfl]
    | ⟨2, _⟩ => by show 0 = if (1 : Nat) = 1 then 0 else d.val; rw [if_pos rfl])
/-- `[64, 1, 256] → [64, 4096, 256]`. -/
theorem bc_S64x1x256_S64x4096x256 (y : S64x1x256.Idx → α) (β : Fin 64) (n : Fin 4096) (d : Fin 256) :
    broadcastInDim S64x4096x256 ![0, 1, 2] bcast_S64x1x256_S64x4096x256_0_1_2 y (ix3 β n d) = y (ix3 β (0 : Fin 1) d) :=
  broadcastInDim_apply _ bcast_S64x1x256_S64x4096x256_0_1_2 y _ (ix3 β (0 : Fin 1) d) (fun i => match i with
    | ⟨0, _⟩ => by show β.val = if (64 : Nat) = 1 then 0 else β.val; rw [if_neg (by decide)]
    | ⟨1, _⟩ => by show 0 = if (1 : Nat) = 1 then 0 else n.val; rw [if_pos rfl]
    | ⟨2, _⟩ => by show d.val = if (256 : Nat) = 1 then 0 else d.val; rw [if_neg (by decide)])
/-- `[64, 4096] → [64, 4096, 1]` along axes 0 and 1. -/
theorem bc_S64x4096_S64x4096x1 (y : S64x4096.Idx → α) (β : Fin 64) (n : Fin 4096) (c : Fin 1) :
    broadcastInDim S64x4096x1 ![0, 1] bcast_S64x4096_S64x4096x1_0_1 y (ix3 β n c) = y (ix2 β n) :=
  broadcastInDim_apply _ bcast_S64x4096_S64x4096x1_0_1 y _ (ix2 β n) (fun i => match i with
    | ⟨0, _⟩ => by show β.val = if (64 : Nat) = 1 then 0 else β.val; rw [if_neg (by decide)]
    | ⟨1, _⟩ => by show n.val = if (4096 : Nat) = 1 then 0 else n.val; rw [if_neg (by decide)])

end Layout

/-! ## Reductions at an index built from coordinates -/

/-- The f32 pattern of zero, as an array's element. -/
theorem zero_first : (constant (F := Ideal) S_ .f32 0x00000000#32) (Shape.Idx.first h_S_) = 0 :=
  Ideal.ofBits_zero_f32

/-- The sum along axis 1 of a `[64, 4096, 1]` array, from zero. -/
theorem sum_S64x4096x1_d1 (y : FVec Ideal S64x4096x1 .f32) (β : Fin 64) (c : Fin 1) :
    Host.reduceAdd y (constant S_ .f32 0x00000000#32) reducesTo_S64x4096x1_S64x1_d1 h_S_ (ix2 β c)
      = ∑ k : Fin 4096, y (ix3 β k c) := by
  simp only [Host.reduceAdd, Ideal.hostReduceAdd_def]
  rw [Ideal.hostReduceAdd_single reducesTo_S64x4096x1_S64x1_d1 (by decide), zero_first, zero_add]
  refine Finset.sum_congr rfl fun k _ => ?_
  exact congrArg y (funext fun a => Fin.ext (by match a with | ⟨0, _⟩ => rfl | ⟨1, _⟩ => rfl | ⟨2, _⟩ => rfl))

/-- The sum along axis 1 of a `[64, 4096, 256]` array, from zero. -/
theorem sum_S64x4096x256_d1 (y : FVec Ideal S64x4096x256 .f32) (β : Fin 64) (d : Fin 256) :
    Host.reduceAdd y (constant S_ .f32 0x00000000#32) reducesTo_S64x4096x256_S64x256_d1 h_S_ (ix2 β d)
      = ∑ k : Fin 4096, y (ix3 β k d) := by
  simp only [Host.reduceAdd, Ideal.hostReduceAdd_def]
  rw [Ideal.hostReduceAdd_single reducesTo_S64x4096x256_S64x256_d1 (by decide), zero_first, zero_add]
  refine Finset.sum_congr rfl fun k _ => ?_
  exact congrArg y (funext fun a => Fin.ext (by match a with | ⟨0, _⟩ => rfl | ⟨1, _⟩ => rfl | ⟨2, _⟩ => rfl))

/-- The sum along axis 2 of a `[64, 1, 256]` array, from zero. -/
theorem sum_S64x1x256_d2 (y : FVec Ideal S64x1x256 .f32) (β : Fin 64) (a : Fin 1) :
    Host.reduceAdd y (constant S_ .f32 0x00000000#32) reducesTo_S64x1x256_S64x1_d2 h_S_ (ix2 β a)
      = ∑ e : Fin 256, y (ix3 β a e) := by
  simp only [Host.reduceAdd, Ideal.hostReduceAdd_def]
  rw [Ideal.hostReduceAdd_single reducesTo_S64x1x256_S64x1_d2 (by decide), zero_first, zero_add]
  refine Finset.sum_congr rfl fun k _ => ?_
  exact congrArg y (funext fun a => Fin.ext (by match a with | ⟨0, _⟩ => rfl | ⟨1, _⟩ => rfl | ⟨2, _⟩ => rfl))

/-- The sum along axis 2 of a `[64, 4096, 256]` array, from zero. -/
theorem sum_S64x4096x256_d2 (y : FVec Ideal S64x4096x256 .f32) (β : Fin 64) (n : Fin 4096) :
    Host.reduceAdd y (constant S_ .f32 0x00000000#32) reducesTo_S64x4096x256_S64x4096_d2 h_S_ (ix2 β n)
      = ∑ e : Fin 256, y (ix3 β n e) := by
  simp only [Host.reduceAdd, Ideal.hostReduceAdd_def]
  rw [Ideal.hostReduceAdd_single reducesTo_S64x4096x256_S64x4096_d2 (by decide), zero_first, zero_add]
  refine Finset.sum_congr rfl fun k _ => ?_
  exact congrArg y (funext fun a => Fin.ext (by match a with | ⟨0, _⟩ => rfl | ⟨1, _⟩ => rfl | ⟨2, _⟩ => rfl))

/-- Minus infinity is the least extended real. -/
theorem negInf_eq_bot : negInf = ⊥ := by simp [negInf, Ideal.ofBits, Ideal.ieee]

/-- A maximum from minus infinity, taken again with minus infinity, is itself. -/
theorem max_negInf_rowMax {ι : Type} [Fintype ι] (z : ι → EReal) : max negInf (rowMax z) = rowMax z := by
  rw [negInf_eq_bot]; exact max_eq_right bot_le

/-- The maximum along axis 1 of a `[64, 4096, 1]` array, from minus infinity. -/
theorem max_S64x4096x1_d1 (y : FVec Ideal S64x4096x1 .f32) (β : Fin 64) (c : Fin 1) :
    Host.reduce FloatOps.maximumf y (constant S_ .f32 0xFF800000#32) reducesTo_S64x4096x1_S64x1_d1 h_S_ (ix2 β c)
      = rowMax (fun k : Fin 4096 => y (ix3 β k c)) := by
  rw [Host.reduce_eq_fold_single FloatOps.maximumf y _ reducesTo_S64x4096x1_S64x1_d1 (by decide) h_S_]
  have hf : (y ∘ Shape.Reduces.lift (by decide : S64x4096x1.Reduces [1] S64x1) (ix2 β c)) = fun k : Fin 4096 => y (ix3 β k c) :=
    funext fun k => congrArg y (funext fun a => Fin.ext (by match a with | ⟨0, _⟩ => rfl | ⟨1, _⟩ => rfl | ⟨2, _⟩ => rfl))
  unfold rowMax negInf
  exact congrArg (fun f => Finset.fold max (Ideal.ofBits .f32 0xFF800000#32) f (Finset.univ : Finset (Fin 4096))) hf

/-! ## The program's repeated pieces, as functions of their operands -/

/-- The row maxima of a `[64, 4096, 1]` array: the maximum along axis 1 from minus infinity, taken again with minus infinity. -/
def rowMaxA (Z : FVec Ideal S64x4096x1 .f32) : FVec Ideal S64x1 .f32 :=
  maximumf (broadcastInDim S64x1 ![] bcast_S_S64x1 (constant S_ .f32 0xFF800000#32))
    (Host.reduce FloatOps.maximumf Z (constant S_ .f32 0xFF800000#32) reducesTo_S64x4096x1_S64x1_d1 h_S_)

/-- The exponentials of the array shifted by its row maxima. -/
def expA (Z : FVec Ideal S64x4096x1 .f32) : FVec Ideal S64x4096x1 .f32 :=
  Host.exp (subf Z (broadcastInDim S64x4096x1 ![0, 1, 2] bcast_S64x1x1_S64x4096x1_0_1_2
    (broadcastInDim S64x1x1 ![0, 2] bcast_S64x1_S64x1x1_0_2 (rowMaxA Z))))

/-- The softmax along axis 1. -/
def softA (Z : FVec Ideal S64x4096x1 .f32) : FVec Ideal S64x4096x1 .f32 :=
  Host.divf (expA Z) (broadcastInDim S64x4096x1 ![0, 1, 2] bcast_S64x1x1_S64x4096x1_0_1_2
    (broadcastInDim S64x1x1 ![0, 2] bcast_S64x1_S64x1x1_0_2
      (Host.reduceAdd (expA Z) (constant S_ .f32 0x00000000#32) reducesTo_S64x4096x1_S64x1_d1 h_S_)))

/-- The weighted sum along axis 1. -/
def sigA (W : FVec Ideal S64x4096x1 .f32) (X : FVec Ideal S64x4096x256 .f32) : FVec Ideal S64x1x256 .f32 :=
  broadcastInDim S64x1x256 ![0, 2] bcast_S64x256_S64x1x256_0_2
    (Host.reduceAdd (mulf (broadcastInDim S64x4096x256 ![0, 1, 2] bcast_S64x4096x1_S64x4096x256_0_1_2 W) X)
      (constant S_ .f32 0x00000000#32) reducesTo_S64x4096x256_S64x256_d1 h_S_)

/-- The norm along axis 2 of a `[64, 1, 256]` array. -/
def normA (σ : FVec Ideal S64x1x256 .f32) : FVec Ideal S64x1x1 .f32 :=
  Host.sqrt (broadcastInDim S64x1x1 ![0, 1] bcast_S64x1_S64x1x1_0_1
    (Host.reduceAdd (mulf σ σ) (constant S_ .f32 0x00000000#32) reducesTo_S64x1x256_S64x1_d2 h_S_))

/-- The squashing's scale: `(|σ|·|σ| / (1 + |σ|·|σ|)) / (|σ| + ε)`. -/
def scaleA (σ : FVec Ideal S64x1x256 .f32) : FVec Ideal S64x1x1 .f32 :=
  Host.divf
    (Host.divf (mulf (normA σ) (normA σ))
      (addf (broadcastInDim S64x1x1 ![] bcast_S_S64x1x1 (constant S_ .f32 0x3F800000#32)) (mulf (normA σ) (normA σ))))
    (addf (normA σ) (broadcastInDim S64x1x1 ![] bcast_S_S64x1x1 (constant S_ .f32 0x322BCC77#32)))

/-- The squashed array. -/
def squashA (σ : FVec Ideal S64x1x256 .f32) : FVec Ideal S64x1x256 .f32 :=
  mulf (broadcastInDim S64x1x256 ![0, 1, 2] bcast_S64x1x1_S64x1x256_0_1_2 (scaleA σ)) σ

/-- The agreement sum along axis 2. -/
def agreeA (S : FVec Ideal S64x1x256 .f32) (X : FVec Ideal S64x4096x256 .f32) : FVec Ideal S64x4096x1 .f32 :=
  broadcastInDim S64x4096x1 ![0, 1] bcast_S64x4096_S64x4096x1_0_1
    (Host.reduceAdd (mulf (broadcastInDim S64x4096x256 ![0, 1, 2] bcast_S64x1x256_S64x4096x256_0_1_2 S) X)
      (constant S_ .f32 0x00000000#32) reducesTo_S64x4096x256_S64x4096_d2 h_S_)

/-! ### The program's buffers are these pieces of earlier buffers (by unfolding definitions) -/

section Buffers
variable (x0 : FVec Ideal S64x4096x256 .f32) (x1 : FVec Ideal S64x4096x1 .f32)

theorem v14_eq : val_main_v14 (F := Ideal) x1 = softA (val_main_v3 (F := Ideal) x1) := rfl
theorem v18_eq : val_main_v18 (F := Ideal) x0 x1 = sigA (val_main_v14 (F := Ideal) x1) (val_main_v1 (F := Ideal) x0 x1) := rfl
theorem v29_eq : val_main_v29 (F := Ideal) x0 x1 = squashA (val_main_v18 (F := Ideal) x0 x1) := rfl
theorem v33_eq : val_main_v33 (F := Ideal) x0 x1 = agreeA (val_main_v29 (F := Ideal) x0 x1) (val_main_v1 (F := Ideal) x0 x1) := rfl

theorem v46_eq : val_main_v46 (F := Ideal) x0 x1 = softA (val_main_v35 (F := Ideal) x0 x1) := rfl
theorem v50_eq : val_main_v50 (F := Ideal) x0 x1 = sigA (val_main_v46 (F := Ideal) x0 x1) (val_main_v1 (F := Ideal) x0 x1) := rfl
theorem v61_eq : val_main_v61 (F := Ideal) x0 x1 = squashA (val_main_v50 (F := Ideal) x0 x1) := rfl
theorem v65_eq : val_main_v65 (F := Ideal) x0 x1 = agreeA (val_main_v61 (F := Ideal) x0 x1) (val_main_v1 (F := Ideal) x0 x1) := rfl

theorem v78_eq : val_main_v78 (F := Ideal) x0 x1 = softA (val_main_v67 (F := Ideal) x0 x1) := rfl
theorem v82_eq : val_main_v82 (F := Ideal) x0 x1 = sigA (val_main_v78 (F := Ideal) x0 x1) (val_main_v1 (F := Ideal) x0 x1) := rfl
theorem v93_eq : val_main_v93 (F := Ideal) x0 x1 = squashA (val_main_v82 (F := Ideal) x0 x1) := rfl
theorem v97_eq : val_main_v97 (F := Ideal) x0 x1 = agreeA (val_main_v93 (F := Ideal) x0 x1) (val_main_v1 (F := Ideal) x0 x1) := rfl

theorem v109_eq : val_main_v109 (F := Ideal) x0 x1 = softA (val_main_v98 (F := Ideal) x0 x1) := rfl

end Buffers

/-! ## The pieces read at an index -/

section Reads
variable {s : Shape} {φ : FTy}

/-- The host's exponential at an index. -/
theorem hostExp_apply (a : FVec Ideal s φ) (i : s.Idx) : Host.exp a i = Ideal.exp (a i) := rfl
/-- The host's square root at an index. -/
theorem hostSqrt_apply (a : FVec Ideal s φ) (i : s.Idx) : Host.sqrt a i = Ideal.sqrt (a i) := rfl

end Reads

theorem rowMaxA_apply (Z : FVec Ideal S64x4096x1 .f32) (β : Fin 64) (c : Fin 1) :
    rowMaxA Z (ix2 β c) = rowMax (fun k : Fin 4096 => Z (ix3 β k c)) := by
  unfold rowMaxA
  rw [maximumf_apply, bc_S_S64x1, max_S64x4096x1_d1]
  exact max_negInf_rowMax _

theorem expA_apply (Z : FVec Ideal S64x4096x1 .f32) (β : Fin 64) (n : Fin 4096) (c : Fin 1) :
    expA Z (ix3 β n c)
      = Ideal.exp (Z (ix3 β n c) - rowMax (fun k : Fin 4096 => Z (ix3 β k (0 : Fin 1)))) := by
  unfold expA
  rw [hostExp_apply, subf_apply, bc_S64x1x1_S64x4096x1, bc_S64x1_S64x1x1_02, rowMaxA_apply]

/-- The softmax piece at `[β, n, 0]` is the softmax of the row `k ↦ Z[β, k, 0]` at `n`. -/
theorem softA_apply (Z : FVec Ideal S64x4096x1 .f32) (β : Fin 64) (n : Fin 4096) :
    softA Z (ix3 β n (0 : Fin 1)) = softmax (fun k : Fin 4096 => Z (ix3 β k (0 : Fin 1))) n := by
  unfold softA
  rw [hostDivf_apply, bc_S64x1x1_S64x4096x1, bc_S64x1_S64x1x1_02, sum_S64x4096x1_d1, expA_apply]
  unfold softmax
  exact congrArg _ (Finset.sum_congr rfl fun k _ => expA_apply Z β k 0)

/-- The weighted sum at `[β, 0, d]`. -/
theorem sigA_apply (W : FVec Ideal S64x4096x1 .f32) (X : FVec Ideal S64x4096x256 .f32) (β : Fin 64) (a : Fin 1) (d : Fin 256) :
    sigA W X (ix3 β a d) = ∑ n : Fin 4096, W (ix3 β n (0 : Fin 1)) * X (ix3 β n d) := by
  unfold sigA
  rw [bc_S64x256_S64x1x256, sum_S64x4096x256_d1]
  refine Finset.sum_congr rfl fun n _ => ?_
  rw [mulf_apply, bc_S64x4096x1_S64x4096x256]

/-- The norm at `[β, 0, 0]`: the root of the sum of squares of the row `e ↦ σ[β, 0, e]`. -/
theorem normA_apply (σ : FVec Ideal S64x1x256 .f32) (β : Fin 64) (a c : Fin 1) :
    normA σ (ix3 β a c) = Ideal.sqrt (∑ e : Fin 256, σ (ix3 β (0 : Fin 1) e) * σ (ix3 β (0 : Fin 1) e)) := by
  unfold normA
  rw [hostSqrt_apply, bc_S64x1_S64x1x1_01, sum_S64x1x256_d2]
  exact congrArg _ (Finset.sum_congr rfl fun e _ => mulf_apply σ σ _)

/-- The f32 pattern `0x3F800000`, as an array's element, is one. -/
theorem one_ix0 : (constant (F := Ideal) S_ .f32 0x3F800000#32) ix0 = 1 := Ideal.ofBits_one_f32

/-- The squashed array at `[β, 0, d]` is the squashing of the row `e ↦ σ[β, 0, e]` at `d`. -/
theorem squashA_apply (σ : FVec Ideal S64x1x256 .f32) (β : Fin 64) (d : Fin 256) :
    squashA σ (ix3 β (0 : Fin 1) d) = squashR (fun e : Fin 256 => σ (ix3 β (0 : Fin 1) e)) d := by
  unfold squashA scaleA
  rw [mulf_apply, bc_S64x1x1_S64x1x256, hostDivf_apply, hostDivf_apply, addf_apply, addf_apply, mulf_apply,
    bc_S_S64x1x1, bc_S_S64x1x1, one_ix0, normA_apply]
  rfl

/-- The agreement sum at `[β, n, 0]`. -/
theorem agreeA_apply (S : FVec Ideal S64x1x256 .f32) (X : FVec Ideal S64x4096x256 .f32) (β : Fin 64) (n : Fin 4096) (c : Fin 1) :
    agreeA S X (ix3 β n c) = ∑ d : Fin 256, S (ix3 β (0 : Fin 1) d) * X (ix3 β n d) := by
  unfold agreeA
  rw [bc_S64x4096_S64x4096x1, sum_S64x4096x256_d2]
  refine Finset.sum_congr rfl fun d _ => ?_
  rw [mulf_apply, bc_S64x1x256_S64x4096x256]

/-! ## Three rounds along one sample -/

section Rounds
variable (x0 : FVec Ideal S64x4096x256 .f32) (x1 : FVec Ideal S64x4096x1 .f32) (β : Fin 64)

/-- The sample's masks `k ↦ x1[β, k, 0]`. -/
abbrev mOf : Fin 4096 → EReal := fun k => x1 (ix3 β k (0 : Fin 1))
/-- The sample's vectors `(k, d) ↦ x0[β, k, d]`. -/
abbrev xOf : Fin 4096 → Fin 256 → EReal := fun k d => x0 (ix3 β k d)

/-- The masked vectors: `x'[β, n, d] = x1[β, n, 0] · x0[β, n, d]`. -/
theorem x'_apply (n : Fin 4096) (d : Fin 256) :
    val_main_v1 (F := Ideal) x0 x1 (ix3 β n d) = mOf x1 β n * xOf x0 β n d := by
  unfold val_main_v1 val_main_v0
  rw [mulf_apply, bc_S64x4096x1_S64x4096x256]

/-- The initial logits are zero. -/
theorem b0_apply (n : Fin 4096) (c : Fin 1) : val_main_v2 (F := Ideal) (ix3 β n c) = 0 := by
  unfold val_main_v2 val_main_cst
  rw [bc_S_S64x4096x1]
  exact Ideal.ofBits_zero_f32

/-- One round's output vector, from a logits array that reads `b` along the sample. -/
theorem round_s (B : FVec Ideal S64x4096x1 .f32) (b : Fin 4096 → EReal) (hB : ∀ n : Fin 4096, B (ix3 β n (0 : Fin 1)) = b n)
    (d : Fin 256) :
    squashA (sigA (softA (mulf x1 B)) (val_main_v1 (F := Ideal) x0 x1)) (ix3 β (0 : Fin 1) d)
      = sR (mOf x1 β) (xOf x0 β) b d := by
  rw [squashA_apply]
  unfold sR sigmaR
  refine congrArg (fun σ => squashR σ d) (funext fun e => ?_)
  rw [sigA_apply]
  refine Finset.sum_congr rfl fun n _ => ?_
  rw [softA_apply, x'_apply]
  refine congrArg (fun z => softmax z n * _) (funext fun k => ?_)
  rw [mulf_apply, hB]

/-- One round's new logits, from a logits array that reads `b` along the sample. -/
theorem round_b (B : FVec Ideal S64x4096x1 .f32) (b : Fin 4096 → EReal) (hB : ∀ n : Fin 4096, B (ix3 β n (0 : Fin 1)) = b n)
    (n : Fin 4096) :
    addf B (agreeA (squashA (sigA (softA (mulf x1 B)) (val_main_v1 (F := Ideal) x0 x1))) (val_main_v1 (F := Ideal) x0 x1))
        (ix3 β n (0 : Fin 1))
      = bR (mOf x1 β) (xOf x0 β) b n := by
  rw [addf_apply, hB, agreeA_apply]
  unfold bR
  refine congrArg (b n + ·) (Finset.sum_congr rfl fun d _ => ?_)
  rw [round_s x0 x1 β B b hB, x'_apply]

/-- The logits after round 1. -/
theorem b1_apply (n : Fin 4096) :
    val_main_v34 (F := Ideal) x0 x1 (ix3 β n (0 : Fin 1)) = bR (mOf x1 β) (xOf x0 β) (fun _ => 0) n :=
  round_b x0 x1 β (val_main_v2 (F := Ideal)) (fun _ => 0) (fun k => b0_apply β k 0) n

/-- The logits after round 2. -/
theorem b2_apply (n : Fin 4096) :
    val_main_v66 (F := Ideal) x0 x1 (ix3 β n (0 : Fin 1))
      = bR (mOf x1 β) (xOf x0 β) (bR (mOf x1 β) (xOf x0 β) (fun _ => 0)) n :=
  round_b x0 x1 β (val_main_v34 (F := Ideal) x0 x1) _ (b1_apply x0 x1 β) n

/-- The logits after round 3. -/
theorem b3_apply (n : Fin 4096) :
    val_main_v98 (F := Ideal) x0 x1 (ix3 β n (0 : Fin 1))
      = bR (mOf x1 β) (xOf x0 β) (bR (mOf x1 β) (xOf x0 β) (bR (mOf x1 β) (xOf x0 β) (fun _ => 0))) n :=
  round_b x0 x1 β (val_main_v66 (F := Ideal) x0 x1) _ (b2_apply x0 x1 β) n

/-- Round 3's output vector. -/
theorem s3_apply (d : Fin 256) :
    val_main_v93 (F := Ideal) x0 x1 (ix3 β (0 : Fin 1) d) = sOutR (mOf x1 β) (xOf x0 β) d :=
  round_s x0 x1 β (val_main_v66 (F := Ideal) x0 x1) _ (b2_apply x0 x1 β) d

/-- The final coupling weights. -/
theorem w_apply (n : Fin 4096) :
    val_main_v109 (F := Ideal) x0 x1 (ix3 β n (0 : Fin 1)) = wOutR (mOf x1 β) (xOf x0 β) n := by
  rw [v109_eq, softA_apply]
  unfold wOutR
  exact congrArg (fun z => softmax z n) (funext fun k => b3_apply x0 x1 β k)

end Rounds

/-! ## The two results -/

/-- The last reshape `[64, 4096, 1] → [64, 4096]` reads `[β, n]` at `[β, n, 0]`. -/
theorem idx_v111 (β : Fin 64) (n : Fin 4096) : idx_main_v111 (ix2 β n) = ix3 β n (0 : Fin 1) := by
  funext a
  refine Fin.ext ?_
  match a with
  | ⟨0, _⟩ => show (β.val * 4096 + n.val) / 4096 = β.val; have := n.isLt; omega
  | ⟨1, _⟩ => show (β.val * 4096 + n.val) / 1 % 4096 = n.val; have := n.isLt; omega
  | ⟨2, _⟩ => rfl

/-- The last reshape `[64, 1, 256] → [64, 256]` reads `[β, d]` at `[β, 0, d]`. -/
theorem idx_v110 (β : Fin 64) (d : Fin 256) : idx_main_v110 (ix2 β d) = ix3 β (0 : Fin 1) d := by
  funext a
  refine Fin.ext ?_
  match a with
  | ⟨0, _⟩ => show (β.val * 256 + d.val) / 256 = β.val; have := d.isLt; omega
  | ⟨1, _⟩ => rfl
  | ⟨2, _⟩ => show (β.val * 256 + d.val) % 256 = d.val; have := d.isLt; omega

/-- The reference's first result at `[β, n]`: the final coupling weights of sample `β`, at capsule `n`. -/
theorem ref_w (x0 : S64x4096x256.Idx → EReal) (x1 : S64x4096x1.Idx → EReal) (β : Fin 64) (n : Fin 4096) :
    val_main_v111 (F := Ideal) x0 x1 (ix2 β n)
      = wOutR (fun k : Fin 4096 => x1 (ix3 β k (0 : Fin 1))) (fun (k : Fin 4096) (d : Fin 256) => x0 (ix3 β k d)) n := by
  rw [val_main_v111_apply, idx_v111]
  exact w_apply x0 x1 β n

/-- The reference's second result at `[β, d]`: the last round's output vector of sample `β`, at coordinate `d`. -/
theorem ref_s (x0 : S64x4096x256.Idx → EReal) (x1 : S64x4096x1.Idx → EReal) (β : Fin 64) (d : Fin 256) :
    val_main_v110 (F := Ideal) x0 x1 (ix2 β d)
      = sOutR (fun k : Fin 4096 => x1 (ix3 β k (0 : Fin 1))) (fun (k : Fin 4096) (d : Fin 256) => x0 (ix3 β k d)) d := by
  rw [val_main_v110_apply, idx_v110]
  exact s3_apply x0 x1 β d

end Cert.ReferenceIdeal.RefValue

end
-- ==== Proof.KerBody.lean ====
/-
  One grid point of the kernel holds two samples: the vectors `X : [2, 4096, 256]`, the masks `M : [2, 1, 4096]` lying along
  the lanes. Its body is three routing rounds on those blocks followed by a softmax. This module names the pieces of that
  body as functions of whole blocks — the lane softmax, the masked weighted sum (a batched matrix product contracting the
  4096 capsules), the squashing, the agreement product (contracting the 256 features) and the update of the logits — and
  shows that the two stored values are these pieces composed: the vector `s` of the third round, and the softmax of the
  logits after three rounds.
-/
import proofs.«102877_j26946624815393_2_alg».proof.Proof.Gen.KernelIdeal.Frame

noncomputable section

namespace Cert.KernelIdeal.Body

open Idealize.ShloMosaic Idealize.SL.Sem Cert.KernelIdeal Cert.KernelIdeal.Gen

variable {F : FTy → Type} [FloatOps F]

/-- The softmax along the lanes of a `[2, 1, 4096]` block: shifted by the lane maximum, exponentiated, divided by the lane sum. -/
def vsoft (z : FVec F S2x1x4096 .f32) : FVec F S2x1x4096 .f32 :=
  divf (exp (subf z (broadcastTo S2x1x4096 (shapeCast S2x1x1 (multiReduction .maximumf [2] S2x1 z 0xFF800000#32 reduces_S2x1x4096_S2x1 (.inl rfl) rfl) shapeCasts_S2x1_S2x1x1) broadcasts_S2x1x1_S2x1x4096)))
    (broadcastTo S2x1x4096 (shapeCast S2x1x1 (multiReduction .add [2] S2x1
      (exp (subf z (broadcastTo S2x1x4096 (shapeCast S2x1x1 (multiReduction .maximumf [2] S2x1 z 0xFF800000#32 reduces_S2x1x4096_S2x1 (.inl rfl) rfl) shapeCasts_S2x1_S2x1x1) broadcasts_S2x1x1_S2x1x4096)))
      0x00000000#32 reduces_S2x1x4096_S2x1 (.inl rfl) rfl) shapeCasts_S2x1_S2x1x1) broadcasts_S2x1x1_S2x1x4096)

/-- The masked weighted sum of the vectors: the weights times the masks, contracted with the vectors over the capsules. -/
def vsigma (X : Vec F S2x4096x256 .f32) (M B : FVec F S2x1x4096 .f32) : FVec F S2x1x256 .f32 :=
  matmul dot_S2x1x4096_S2x4096x256_S2x1x256_2_1_1_2_0_0 none (mulf (vsoft (mulf M B)) M) X (constant S2x1x256 .f32 0x00000000#32)

/-- The squared norm of each sample's vector, as a `[2, 1, 1]` block. -/
def vnormsq (σ : FVec F S2x1x256 .f32) : FVec F S2x1x1 .f32 :=
  shapeCast S2x1x1 (multiReduction .add [2] S2x1 (mulf σ σ) 0x00000000#32 reduces_S2x1x256_S2x1 (.inl rfl) rfl) shapeCasts_S2x1_S2x1x1

/-- The squashing of each sample's vector. -/
def vsquash (σ : FVec F S2x1x256 .f32) : FVec F S2x1x256 .f32 :=
  mulf (broadcastTo S2x1x256
      (divf (divf (vnormsq σ) (addf (broadcast S2x1x1 (Scalar.ofBits .f32 0x3F800000#32)) (vnormsq σ)))
        (addf (sqrt (vnormsq σ)) (broadcast S2x1x1 (Scalar.ofBits .f32 0x322BCC77#32))))
      broadcasts_S2x1x1_S2x1x256) σ

/-- One round's output vector. -/
def vS (X : Vec F S2x4096x256 .f32) (M B : FVec F S2x1x4096 .f32) : FVec F S2x1x256 .f32 :=
  vsquash (vsigma X M B)

/-- One round's new logits: the old ones plus the mask times the agreement of the output vector with each capsule's vector. -/
def vB (X : Vec F S2x4096x256 .f32) (M B : FVec F S2x1x4096 .f32) : FVec F S2x1x4096 .f32 :=
  addf B (mulf M (matmul dot_S2x1x256_S2x4096x256_S2x1x4096_2_2_1_1_0_0 none (vS X M B) X (constant S2x1x4096 .f32 0x00000000#32)))

/-- The logits the first round starts from. -/
def vzero : FVec F S2x1x4096 .f32 := broadcast S2x1x4096 (Scalar.ofBits .f32 0x00000000#32)

/-- The masks as the body uses them. -/
def vM (x1 : Vec F S2x1x4096 .f32) : FVec F S2x1x4096 .f32 := shapeCast S2x1x4096 x1 shapeCasts_S2x1x4096_S2x1x4096

/-- The first stored value: the third round's output vector. -/
theorem pay_s (x0 : Vec F S2x4096x256 .f32) (x1 : Vec F S2x1x4096 .f32) :
    k0_pay6 (F := F) x0 (k0_pay2 x1) (k0_pay3 x0 x1) (k0_pay4 x0 x1) (constant S2x1x256 .f32 0x00000000#32)
      = vS x0 (vM x1) (vB x0 (vM x1) (vB x0 (vM x1) vzero)) := rfl

/-- The second stored value: the softmax of the logits after three rounds. -/
theorem pay_w (x0 : Vec F S2x4096x256 .f32) (x1 : Vec F S2x1x4096 .f32) :
    k0_pay1 (F := F) (k0_pay7 x0 (k0_pay2 x1) (k0_pay3 x0 x1) (k0_pay4 x0 x1) (constant S2x1x256 .f32 0x00000000#32))
      = vsoft (vB x0 (vM x1) (vB x0 (vM x1) (vB x0 (vM x1) vzero))) := rfl

end Cert.KernelIdeal.Body

end
-- ==== Proof.KerRead.lean ====
/-
  The pieces of the kernel's body, read at one index, at the extended reals.

  A grid point holds two samples `p`; the masks, logits and weights of a sample lie along the 4096 lanes of a
  `[2, 1, 4096]` block, its vectors along the 256 lanes of a `[2, 1, 256]` block.  Read at the index `(p, 0, n)` or
  `(p, 0, d)`, each piece of the body is the corresponding formula of one routing round applied to the sample's row of
  masks `k ↦ M (p, 0, k)`, its vectors `(k, e) ↦ X (p, k, e)` and its logits `k ↦ B (p, 0, k)`:
  a reduction along the lanes followed by a cast to `[2, 1, 1]` and a broadcast back is the lane sum (or lane maximum) of
  the sample, read at every lane; a batched matrix product contracting one axis is the sum over that axis's coordinate of
  the products of the operands' entries.
-/
import proofs.«102877_j26946624815393_2_alg».proof.Proof.KerBody
import proofs.«102877_j26946624815393_2_alg».proof.Proof.RoutingDefs
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.BodyRead

open Idealize.ShloMosaic Idealize.ShloMosaic.ValueIdx Cert.KernelIdeal Cert.KernelIdeal.Gen Cert.KernelIdeal.Body Cert.Routing

/-! ### Layout operations at an index -/

/-- The cast of a `[2, 1]` block to `[2, 1, 1]` keeps the entry of each sample. -/
theorem cast_apply {α : Type} (v : S2x1.Idx → α) (p : Fin 2) :
    shapeCast S2x1x1 v shapeCasts_S2x1_S2x1x1 (ix3 p (0 : Fin 1) (0 : Fin 1)) = v (ix2 p (0 : Fin 1)) :=
  shapeCast_apply v _ _ _ (by
    rw [Shape.rowMajor_val_two, Shape.rowMajor_val_three]
    show p.val * 1 + 0 = (p.val * 1 + 0) * 1 + 0
    omega)

/-- A `[2, 1, 1]` block broadcast along 4096 lanes reads the sample's entry at every lane. -/
theorem bcast4096_apply {α : Type} (v : S2x1x1.Idx → α) (p : Fin 2) (n : Fin 4096) :
    broadcastTo S2x1x4096 v broadcasts_S2x1x1_S2x1x4096 (ix3 p (0 : Fin 1) n) = v (ix3 p (0 : Fin 1) (0 : Fin 1)) :=
  broadcastTo_apply v _ _ _ (fun a => match a with
    | ⟨0, _⟩ => by show p.val = if (2 : Nat) = 1 then 0 else p.val; rw [if_neg (by decide)]
    | ⟨1, _⟩ => by show 0 = if (1 : Nat) = 1 then 0 else _; rw [if_pos rfl]
    | ⟨2, _⟩ => by show 0 = if (1 : Nat) = 1 then 0 else _; rw [if_pos rfl])

/-- A `[2, 1, 1]` block broadcast along 256 lanes reads the sample's entry at every lane. -/
theorem bcast256_apply {α : Type} (v : S2x1x1.Idx → α) (p : Fin 2) (d : Fin 256) :
    broadcastTo S2x1x256 v broadcasts_S2x1x1_S2x1x256 (ix3 p (0 : Fin 1) d) = v (ix3 p (0 : Fin 1) (0 : Fin 1)) :=
  broadcastTo_apply v _ _ _ (fun a => match a with
    | ⟨0, _⟩ => by show p.val = if (2 : Nat) = 1 then 0 else p.val; rw [if_neg (by decide)]
    | ⟨1, _⟩ => by show 0 = if (1 : Nat) = 1 then 0 else _; rw [if_pos rfl]
    | ⟨2, _⟩ => by show 0 = if (1 : Nat) = 1 then 0 else _; rw [if_pos rfl])

/-! ### Reductions along the lanes -/

/-- The sum along the 4096 lanes, at a sample, is the sum of the sample's row. -/
theorem sum4096_apply (src : FVec Ideal S2x1x4096 .f32) (p : Fin 2) :
    multiReduction .add [2] S2x1 src 0x00000000#32 reduces_S2x1x4096_S2x1 (.inl rfl) rfl (ix2 p (0 : Fin 1))
      = ∑ k : Fin 4096, src (ix3 p (0 : Fin 1) k) := by
  refine (Ideal.multiReduction_add_single src _ reduces_S2x1x4096_S2x1 (.inl rfl) rfl (ix2 p (0 : Fin 1))).trans ?_
  exact Finset.sum_congr rfl fun k _ => congrArg src (funext fun a => Fin.ext (by
    match a with | ⟨0, _⟩ => rfl | ⟨1, _⟩ => rfl | ⟨2, _⟩ => rfl))

/-- The sum along the 256 lanes, at a sample, is the sum of the sample's row. -/
theorem sum256_apply (src : FVec Ideal S2x1x256 .f32) (p : Fin 2) :
    multiReduction .add [2] S2x1 src 0x00000000#32 reduces_S2x1x256_S2x1 (.inl rfl) rfl (ix2 p (0 : Fin 1))
      = ∑ k : Fin 256, src (ix3 p (0 : Fin 1) k) := by
  refine (Ideal.multiReduction_add_single src _ reduces_S2x1x256_S2x1 (.inl rfl) rfl (ix2 p (0 : Fin 1))).trans ?_
  exact Finset.sum_congr rfl fun k _ => congrArg src (funext fun a => Fin.ext (by
    match a with | ⟨0, _⟩ => rfl | ⟨1, _⟩ => rfl | ⟨2, _⟩ => rfl))

/-- The maximum along the 4096 lanes from minus infinity, at a sample, is the row maximum of the sample's row. -/
theorem max4096_apply (src : FVec Ideal S2x1x4096 .f32) (p : Fin 2) :
    multiReduction .maximumf [2] S2x1 src 0xFF800000#32 reduces_S2x1x4096_S2x1 (.inl rfl) rfl (ix2 p (0 : Fin 1))
      = rowMax (fun k : Fin 4096 => src (ix3 p (0 : Fin 1) k)) := by
  refine (Ideal.multiReduction_maximumf_single src _ reduces_S2x1x4096_S2x1 (.inl rfl) rfl (ix2 p (0 : Fin 1))).trans ?_
  show (Finset.univ : Finset (Fin 4096)).fold max negInf (fun k : Fin 4096 => src (reduces_S2x1x4096_S2x1.lift (ix2 p (0 : Fin 1)) k)) = _
  unfold rowMax
  congr 1
  funext k
  exact congrArg src (funext fun a => Fin.ext (by
    match a with | ⟨0, _⟩ => rfl | ⟨1, _⟩ => rfl | ⟨2, _⟩ => rfl))

/-! ### The two batched matrix products at an index -/

/-- The product contracting the 4096 capsules, per sample: `Σ_n L (p, 0, n) · X (p, n, d)`. -/
theorem mmSigma_apply (L : FVec Ideal S2x1x4096 .f32) (X : FVec Ideal S2x4096x256 .f32) (p : Fin 2) (d : Fin 256) :
    matmul dot_S2x1x4096_S2x4096x256_S2x1x256_2_1_1_2_0_0 none L X (constant S2x1x256 .f32 0x00000000#32) (ix3 p (0 : Fin 1) d)
      = ∑ n : Fin 4096, L (ix3 p (0 : Fin 1) n) * X (ix3 p n d) := by
  refine (Ideal.matmul_constant_zero_apply dot_S2x1x4096_S2x4096x256_S2x1x256_2_1_1_2_0_0 none L X (ix3 p (0 : Fin 1) d)).trans ?_
  refine (Equiv.sum_comp (contrEquiv1 dot_S2x1x4096_S2x4096x256_S2x1x256_2_1_1_2_0_0 4096 rfl rfl).symm _).symm.trans ?_
  refine Finset.sum_congr rfl fun n _ => ?_
  have hk := contrEquiv1_symm_val dot_S2x1x4096_S2x4096x256_S2x1x256_2_1_1_2_0_0 4096 rfl rfl n
  congr 1
  · refine congrArg L (funext fun a => Fin.ext ?_)
    match a with
    | ⟨0, _⟩ => rfl
    | ⟨1, _⟩ => rfl
    | ⟨2, _⟩ => exact (DotDims.lhsIdx_val_of_single _ rfl _ _).trans hk
  · refine congrArg X (funext fun a => Fin.ext ?_)
    match a with
    | ⟨0, _⟩ => rfl
    | ⟨1, _⟩ => exact (DotDims.rhsIdx_val_of_single _ rfl _ _).trans hk
    | ⟨2, _⟩ => rfl

/-- The product contracting the 256 features, per sample: `Σ_d s (p, 0, d) · X (p, n, d)`. -/
theorem mmAgree_apply (s : FVec Ideal S2x1x256 .f32) (X : FVec Ideal S2x4096x256 .f32) (p : Fin 2) (n : Fin 4096) :
    matmul dot_S2x1x256_S2x4096x256_S2x1x4096_2_2_1_1_0_0 none s X (constant S2x1x4096 .f32 0x00000000#32) (ix3 p (0 : Fin 1) n)
      = ∑ d : Fin 256, s (ix3 p (0 : Fin 1) d) * X (ix3 p n d) := by
  refine (Ideal.matmul_constant_zero_apply dot_S2x1x256_S2x4096x256_S2x1x4096_2_2_1_1_0_0 none s X (ix3 p (0 : Fin 1) n)).trans ?_
  refine (Equiv.sum_comp (contrEquiv1 dot_S2x1x256_S2x4096x256_S2x1x4096_2_2_1_1_0_0 256 rfl rfl).symm _).symm.trans ?_
  refine Finset.sum_congr rfl fun d _ => ?_
  have hk := contrEquiv1_symm_val dot_S2x1x256_S2x4096x256_S2x1x4096_2_2_1_1_0_0 256 rfl rfl d
  congr 1
  · refine congrArg s (funext fun a => Fin.ext ?_)
    match a with
    | ⟨0, _⟩ => rfl
    | ⟨1, _⟩ => rfl
    | ⟨2, _⟩ => exact (DotDims.lhsIdx_val_of_single _ rfl _ _).trans hk
  · refine congrArg X (funext fun a => Fin.ext ?_)
    match a with
    | ⟨0, _⟩ => rfl
    | ⟨1, _⟩ => rfl
    | ⟨2, _⟩ => exact (DotDims.rhsIdx_val_of_single _ rfl _ _).trans hk

/-! ### The lane softmax -/

/-- The lane maximum, cast and broadcast back, reads the row maximum of the sample at every lane. -/
theorem laneMax_apply (z : FVec Ideal S2x1x4096 .f32) (p : Fin 2) (n : Fin 4096) :
    broadcastTo S2x1x4096 (shapeCast S2x1x1 (multiReduction .maximumf [2] S2x1 z 0xFF800000#32 reduces_S2x1x4096_S2x1 (.inl rfl) rfl)
        shapeCasts_S2x1_S2x1x1) broadcasts_S2x1x1_S2x1x4096 (ix3 p (0 : Fin 1) n)
      = rowMax (fun k : Fin 4096 => z (ix3 p (0 : Fin 1) k)) :=
  (bcast4096_apply _ p n).trans ((cast_apply _ p).trans (max4096_apply z p))

/-- The lane sum, cast and broadcast back, reads the sum of the sample's row at every lane. -/
theorem laneSum_apply (v : FVec Ideal S2x1x4096 .f32) (p : Fin 2) (n : Fin 4096) :
    broadcastTo S2x1x4096 (shapeCast S2x1x1 (multiReduction .add [2] S2x1 v 0x00000000#32 reduces_S2x1x4096_S2x1 (.inl rfl) rfl)
        shapeCasts_S2x1_S2x1x1) broadcasts_S2x1x1_S2x1x4096 (ix3 p (0 : Fin 1) n)
      = ∑ k : Fin 4096, v (ix3 p (0 : Fin 1) k) :=
  (bcast4096_apply _ p n).trans ((cast_apply _ p).trans (sum4096_apply v p))

/-- The lane softmax of a block is, per sample, the softmax of the sample's row. -/
theorem vsoft_apply (z : FVec Ideal S2x1x4096 .f32) (p : Fin 2) (n : Fin 4096) :
    vsoft (F := Ideal) z (ix3 p (0 : Fin 1) n) = softmax (fun k : Fin 4096 => z (ix3 p (0 : Fin 1) k)) n := by
  have hexp := fun k : Fin 4096 =>
    congrArg (fun t => Ideal.exp (z (ix3 p (0 : Fin 1) k) - t)) (laneMax_apply z p k)
  unfold vsoft softmax
  exact congrArg₂ Ideal.div (hexp n) ((laneSum_apply _ p n).trans (Finset.sum_congr rfl fun k _ => hexp k))

/-! ### One round -/

/-- The masked weighted sum of a block is, per sample, the masked weighted sum `σ_d = Σ_n (w_n · m_n) · x_{n,d}`. -/
theorem vsigma_apply (X : FVec Ideal S2x4096x256 .f32) (M B : FVec Ideal S2x1x4096 .f32) (p : Fin 2) (d : Fin 256) :
    vsigma (F := Ideal) X M B (ix3 p (0 : Fin 1) d)
      = sigmaK (fun k : Fin 4096 => M (ix3 p (0 : Fin 1) k)) (fun (k : Fin 4096) (e : Fin 256) => X (ix3 p k e))
          (fun k : Fin 4096 => B (ix3 p (0 : Fin 1) k)) d := by
  unfold vsigma sigmaK
  refine (mmSigma_apply _ X p d).trans ?_
  refine Finset.sum_congr rfl fun n _ => ?_
  exact congrArg (fun t => t * M (ix3 p (0 : Fin 1) n) * X (ix3 p n d)) (vsoft_apply (mulf M B) p n)

/-- The squared norm of each sample's vector is the sum of the squares of its entries. -/
theorem vnormsq_apply (σ : FVec Ideal S2x1x256 .f32) (p : Fin 2) :
    vnormsq (F := Ideal) σ (ix3 p (0 : Fin 1) (0 : Fin 1)) = ∑ e : Fin 256, σ (ix3 p (0 : Fin 1) e) * σ (ix3 p (0 : Fin 1) e) := by
  unfold vnormsq
  exact (cast_apply _ p).trans (sum256_apply (mulf σ σ) p)

/-- The squashing of a block is, per sample, the squashing of the sample's vector. -/
theorem vsquash_apply (σ : FVec Ideal S2x1x256 .f32) (p : Fin 2) (d : Fin 256) :
    vsquash (F := Ideal) σ (ix3 p (0 : Fin 1) d) = squashK (fun e : Fin 256 => σ (ix3 p (0 : Fin 1) e)) d := by
  unfold vsquash squashK
  refine congrArg (· * σ (ix3 p (0 : Fin 1) d)) ?_
  refine (bcast256_apply _ p d).trans ?_
  show Ideal.div (Ideal.div (vnormsq σ (ix3 p (0 : Fin 1) (0 : Fin 1)))
        (Ideal.ofBits .f32 0x3F800000#32 + vnormsq σ (ix3 p (0 : Fin 1) (0 : Fin 1))))
      (Ideal.sqrt (vnormsq σ (ix3 p (0 : Fin 1) (0 : Fin 1))) + Ideal.ofBits .f32 0x322BCC77#32) = _
  rw [vnormsq_apply σ p, Ideal.ofBits_one_f32]
  rfl

/-- One round's output vector, per sample. -/
theorem vS_apply (X : FVec Ideal S2x4096x256 .f32) (M B : FVec Ideal S2x1x4096 .f32) (p : Fin 2) (d : Fin 256) :
    vS (F := Ideal) X M B (ix3 p (0 : Fin 1) d)
      = sK (fun k : Fin 4096 => M (ix3 p (0 : Fin 1) k)) (fun (k : Fin 4096) (e : Fin 256) => X (ix3 p k e))
          (fun k : Fin 4096 => B (ix3 p (0 : Fin 1) k)) d := by
  unfold vS sK
  exact (vsquash_apply _ p d).trans (congrArg (fun σ => squashK σ d) (funext fun e => vsigma_apply X M B p e))

/-- One round's new logits, per sample: `b_n + m_n · Σ_d s_d · x_{n,d}`. -/
theorem vB_apply (X : FVec Ideal S2x4096x256 .f32) (M B : FVec Ideal S2x1x4096 .f32) (p : Fin 2) (n : Fin 4096) :
    vB (F := Ideal) X M B (ix3 p (0 : Fin 1) n)
      = bK (fun k : Fin 4096 => M (ix3 p (0 : Fin 1) k)) (fun (k : Fin 4096) (e : Fin 256) => X (ix3 p k e))
          (fun k : Fin 4096 => B (ix3 p (0 : Fin 1) k)) n := by
  unfold vB bK
  refine congrArg (fun t => B (ix3 p (0 : Fin 1) n) + M (ix3 p (0 : Fin 1) n) * t) ?_
  exact (mmAgree_apply _ X p n).trans
    (Finset.sum_congr rfl fun d _ => congrArg (· * X (ix3 p n d)) (vS_apply X M B p d))

/-! ### The starting logits and the masks -/

/-- The starting logits are zero. -/
theorem vzero_apply (p : Fin 2) (n : Fin 4096) : vzero (F := Ideal) (ix3 p (0 : Fin 1) n) = 0 :=
  Ideal.ofBits_zero_f32

/-- The masks as the body uses them are the masks as loaded. -/
theorem vM_apply (x1 : FVec Ideal S2x1x4096 .f32) (p : Fin 2) (n : Fin 4096) :
    vM (F := Ideal) x1 (ix3 p (0 : Fin 1) n) = x1 (ix3 p (0 : Fin 1) n) :=
  congrFun (shapeCast_self x1 shapeCasts_S2x1x4096_S2x1x4096) _

end Cert.KernelIdeal.BodyRead

end
-- ==== Proof.KerValue.lean ====
/-
  The kernel program's run read as one function of its two argument arrays: each grid point holds two samples, the
  output windows' blocks tile their arrays, and what a point writes back is, sample by sample, the final coupling
  weights and the last round's output vector of three rounds of routing by agreement (RoutingDefs.lean, the kernel's
  spelling); the two reshapes after the region then give the two results as RoutingBatch.lean states them.
-/
import proofs.«102877_j26946624815393_2_alg».proof.Proof.Gen.KernelIdeal.Frame
import proofs.«102877_j26946624815393_2_alg».proof.Proof.KerBody
import proofs.«102877_j26946624815393_2_alg».proof.Proof.KerRead
import proofs.«102877_j26946624815393_2_alg».proof.Proof.RoutingBatch
import Idealize.ShloMosaic.Lib.Pipeline.Value
import Idealize.ShloMosaic.Lib.StableHlo.Run
import Idealize.ShloMosaic.Lib.Tactic
import Idealize.ShloMosaic.Lib.ValueIdx
import Idealize.ShloMosaic.Lib.IdealHost

set_option maxRecDepth 16384

noncomputable section

namespace Cert.KernelIdeal.Value

open Cert.KernelIdeal Cert.KernelIdeal.Gen Cert.KernelIdeal.Body Cert.KernelIdeal.BodyRead Cert.Routing
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The windows' index maps, decided over the grid -/

/-- Every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The input blocks as the argument arrays -/

/-- Window 1's array is the transposed masks. -/
theorem V_main_v0 (c : Dev nD) :
    (V m c main_v0 : S64x1x4096.Idx → EReal)
      = transpose S64x1x4096 [0, 2, 1] (m ((c : Thread nD τ).loc main_arg1)) transposes_S64x4096x1_S64x1x4096_0_2_1 := by
  show StableHlo.after hostOps0 (fun b => m (c, b)) (Proc.devRef .tc main_v0) = _
  after_results

/-- Window 0's block at point `t`, sample `p` of its two: the vectors of sample `2t + p`. -/
theorem iblk0_apply (c : Dev nD) (t : Fin cfg0.N) (p : Fin 2) (k : Fin 4096) (e : Fin 256) (β : Fin 64)
    (hβ : β.val = 2 * t.val + p.val) :
    (iblk m c 0 t : Vec Ideal S2x4096x256 .f32) (ix3 p k e)
      = (m ((c : Thread nD τ).loc main_arg0) : S64x4096x256.Idx → EReal) (ix3 β k e) := by
  obtain ⟨h0, h1, h2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 2 + 1 * p.val = β.val; rw [h0, hβ]; omega
  | ⟨1, _⟩ => show win0_0.index t (1 : Fin 3) * 4096 + 1 * k.val = k.val; rw [h1]; omega
  | ⟨2, _⟩ => show win0_0.index t (2 : Fin 3) * 256 + 1 * e.val = e.val; rw [h2]; omega

/-- Window 1's block at point `t`, sample `p` of its two: the masks of sample `2t + p`, along the lanes. -/
theorem iblk1_apply (c : Dev nD) (t : Fin cfg0.N) (p : Fin 2) (a : Fin 1) (k : Fin 4096) (β : Fin 64)
    (hβ : β.val = 2 * t.val + p.val) :
    (iblk m c 1 t : Vec Ideal S2x1x4096 .f32) (ix3 p a k)
      = (m ((c : Thread nD τ).loc main_arg1) : S64x4096x1.Idx → EReal) (ix3 β k (0 : Fin 1)) := by
  obtain ⟨-, -, -, h0, h1, h2, -⟩ := idx_facts t
  unfold iblk
  rw [View.read_apply]
  show V m c main_v0 _ = _
  rw [V_main_v0]
  refine transpose_apply _ _ _ _ (ix3 β k (0 : Fin 1)) (fun b => ?_)
  have ha : a.val = 0 := by omega
  match b with
  | ⟨0, _⟩ => show β.val = win0_1.index t (0 : Fin 3) * 2 + 1 * p.val; rw [h0, hβ]; omega
  | ⟨1, _⟩ => show 0 = win0_1.index t (1 : Fin 3) * 1 + 1 * a.val; rw [h1]; omega
  | ⟨2, _⟩ => show k.val = win0_1.index t (2 : Fin 3) * 4096 + 1 * k.val; rw [h2]; omega

/-! ## The output windows' blocks tile their arrays -/

/-- An index of `[64, 1, 4096]` is in point `t`'s block of window 2 iff each coordinate is in the block's range. -/
theorem mem_blk2 (t : Fin cfg0.N) (i : S64x1x4096.Idx) :
    i ∈ ((cfg0.win 2).blk t).view.set ↔ ∀ a : Fin 3, win0_2.index t a * S2x1x4096.size a ≤ (i a).val
      ∧ (i a).val < win0_2.index t a * S2x1x4096.size a + S2x1x4096.size a := by
  show i ∈ ((View.whole main_v1_0).slice (win0_2.rect t)).set ↔ _
  rw [View.set_slice_whole, Rect.mem_set_unit]
  exact Iff.rfl

/-- An index of `[64, 1, 256]` is in point `t`'s block of window 3 iff each coordinate is in the block's range. -/
theorem mem_blk3 (t : Fin cfg0.N) (i : S64x1x256.Idx) :
    i ∈ ((cfg0.win 3).blk t).view.set ↔ ∀ a : Fin 3, win0_3.index t a * S2x1x256.size a ≤ (i a).val
      ∧ (i a).val < win0_3.index t a * S2x1x256.size a + S2x1x256.size a := by
  show i ∈ ((View.whole main_v1_1).slice (win0_3.rect t)).set ↔ _
  rw [View.set_slice_whole, Rect.mem_set_unit]
  exact Iff.rfl

/-- Every index of window 2's array lies in the block of the point that holds its sample: point `(i 0) / 2`. -/
theorem cover2 (i : S64x1x4096.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have hi2 : (i 2).val < 4096 := (i 2).isLt
  obtain ⟨t, ht⟩ : ∃ t : Fin cfg0.N, t.val = (i 0).val / 2 :=
    ⟨⟨(i 0).val / 2, by rw [show cfg0.N = 32 from N_0]; omega⟩, rfl⟩
  obtain ⟨-, -, -, -, -, -, h0, h1, h2, -⟩ := idx_facts t
  refine ⟨t, flush0_2 t, ?_⟩
  rw [mem_blk2]
  intro a
  match a with
  | ⟨0, _⟩ =>
    show win0_2.index t (0 : Fin 3) * 2 ≤ (i 0).val ∧ (i 0).val < win0_2.index t (0 : Fin 3) * 2 + 2
    rw [h0, ht]; omega
  | ⟨1, _⟩ =>
    show win0_2.index t (1 : Fin 3) * 1 ≤ (i 1).val ∧ (i 1).val < win0_2.index t (1 : Fin 3) * 1 + 1
    rw [h1]; omega
  | ⟨2, _⟩ =>
    show win0_2.index t (2 : Fin 3) * 4096 ≤ (i 2).val ∧ (i 2).val < win0_2.index t (2 : Fin 3) * 4096 + 4096
    rw [h2]; omega

/-- Every index of window 3's array lies in the block of the point that holds its sample. -/
theorem cover3 (i : S64x1x256.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 256 := (i 2).isLt
  obtain ⟨t, ht⟩ : ∃ t : Fin cfg0.N, t.val = (i 0).val / 2 :=
    ⟨⟨(i 0).val / 2, by rw [show cfg0.N = 32 from N_0]; omega⟩, rfl⟩
  obtain ⟨-, -, -, -, -, -, -, -, -, h0, h1, h2⟩ := idx_facts t
  refine ⟨t, flush0_3 t, ?_⟩
  rw [mem_blk3]
  intro a
  match a with
  | ⟨0, _⟩ =>
    show win0_3.index t (0 : Fin 3) * 2 ≤ (i 0).val ∧ (i 0).val < win0_3.index t (0 : Fin 3) * 2 + 2
    rw [h0, ht]; omega
  | ⟨1, _⟩ =>
    show win0_3.index t (1 : Fin 3) * 1 ≤ (i 1).val ∧ (i 1).val < win0_3.index t (1 : Fin 3) * 1 + 1
    rw [h1]; omega
  | ⟨2, _⟩ =>
    show win0_3.index t (2 : Fin 3) * 256 ≤ (i 2).val ∧ (i 2).val < win0_3.index t (2 : Fin 3) * 256 + 256
    rw [h2]; omega

/-! ## What a point writes back -/

theorem hz : (![0, 0, 0] : Fin 3 → Nat) = fun _ => 0 := funext fun a => by fin_cases a <;> rfl

/-- Window 2's array after the run: at `[β, 0, n]` sample `β`'s final coupling weight of capsule `n`. -/
def GWa (a0 : S64x4096x256.Idx → EReal) (a1 : S64x4096x1.Idx → EReal) : S64x1x4096.Idx → EReal :=
  fun i => wOutK (maskOf a1 ⟨(i 0).val, (i 0).isLt⟩) (vecsOf a0 ⟨(i 0).val, (i 0).isLt⟩) ⟨(i 2).val, (i 2).isLt⟩

/-- Window 3's array after the run: at `[β, 0, d]` coordinate `d` of sample `β`'s last output vector. -/
def GSa (a0 : S64x4096x256.Idx → EReal) (a1 : S64x4096x1.Idx → EReal) : S64x1x256.Idx → EReal :=
  fun i => sOutK (maskOf a1 ⟨(i 0).val, (i 0).isLt⟩) (vecsOf a0 ⟨(i 0).val, (i 0).isLt⟩) ⟨(i 2).val, (i 2).isLt⟩

theorem GWa_apply (a0 : S64x4096x256.Idx → EReal) (a1 : S64x4096x1.Idx → EReal) (β : Fin 64) (a : Fin 1) (n : Fin 4096) :
    GWa a0 a1 (ix3 β a n) = wOutK (maskOf a1 β) (vecsOf a0 β) n := rfl
theorem GSa_apply (a0 : S64x4096x256.Idx → EReal) (a1 : S64x4096x1.Idx → EReal) (β : Fin 64) (a : Fin 1) (d : Fin 256) :
    GSa a0 a1 (ix3 β a d) = sOutK (maskOf a1 β) (vecsOf a0 β) d := rfl

/-! ### The stored values, sample by sample, from blocks that read a sample's masks and vectors -/

section Rows
variable (X : FVec Ideal S2x4096x256 .f32) (M : FVec Ideal S2x1x4096 .f32) (p : Fin 2)
  (mk : Fin 4096 → EReal) (xk : Fin 4096 → Fin 256 → EReal)

/-- One round's new logits along sample `p`. -/
theorem vB_row (hM : ∀ k : Fin 4096, M (ix3 p (0 : Fin 1) k) = mk k) (hX : ∀ (k : Fin 4096) (e : Fin 256), X (ix3 p k e) = xk k e)
    (B : FVec Ideal S2x1x4096 .f32) (b : Fin 4096 → EReal) (hB : ∀ k : Fin 4096, B (ix3 p (0 : Fin 1) k) = b k) (n : Fin 4096) :
    vB X M B (ix3 p (0 : Fin 1) n) = bK mk xk b n := by
  have e1 : (fun k : Fin 4096 => M (ix3 p (0 : Fin 1) k)) = mk := funext hM
  have e2 : (fun (k : Fin 4096) (e : Fin 256) => X (ix3 p k e)) = xk := funext fun k => funext (hX k)
  have e3 : (fun k : Fin 4096 => B (ix3 p (0 : Fin 1) k)) = b := funext hB
  rw [vB_apply, e1, e2, e3]

/-- One round's output vector along sample `p`. -/
theorem vS_row (hM : ∀ k : Fin 4096, M (ix3 p (0 : Fin 1) k) = mk k) (hX : ∀ (k : Fin 4096) (e : Fin 256), X (ix3 p k e) = xk k e)
    (B : FVec Ideal S2x1x4096 .f32) (b : Fin 4096 → EReal) (hB : ∀ k : Fin 4096, B (ix3 p (0 : Fin 1) k) = b k) (d : Fin 256) :
    vS X M B (ix3 p (0 : Fin 1) d) = sK mk xk b d := by
  have e1 : (fun k : Fin 4096 => M (ix3 p (0 : Fin 1) k)) = mk := funext hM
  have e2 : (fun (k : Fin 4096) (e : Fin 256) => X (ix3 p k e)) = xk := funext fun k => funext (hX k)
  have e3 : (fun k : Fin 4096 => B (ix3 p (0 : Fin 1) k)) = b := funext hB
  rw [vS_apply, e1, e2, e3]

end Rows

/-- The first output's stored value along sample `p`: the final coupling weights. -/
theorem payW_apply (x0 : FVec Ideal S2x4096x256 .f32) (x1 : FVec Ideal S2x1x4096 .f32) (p : Fin 2) (n : Fin 4096)
    (mk : Fin 4096 → EReal) (xk : Fin 4096 → Fin 256 → EReal)
    (h1 : ∀ k : Fin 4096, x1 (ix3 p (0 : Fin 1) k) = mk k) (h0 : ∀ (k : Fin 4096) (e : Fin 256), x0 (ix3 p k e) = xk k e) :
    vsoft (F := Ideal) (vB x0 (vM x1) (vB x0 (vM x1) (vB x0 (vM x1) vzero))) (ix3 p (0 : Fin 1) n) = wOutK mk xk n := by
  have hM : ∀ k : Fin 4096, vM (F := Ideal) x1 (ix3 p (0 : Fin 1) k) = mk k := fun k => (vM_apply x1 p k).trans (h1 k)
  have b1 := vB_row x0 (vM x1) p mk xk hM h0 vzero (fun _ => 0) (fun k => vzero_apply p k)
  have b2 := vB_row x0 (vM x1) p mk xk hM h0 _ _ b1
  have b3 := vB_row x0 (vM x1) p mk xk hM h0 _ _ b2
  rw [vsoft_apply]
  unfold wOutK
  exact congrArg (fun z => softmax z n) (funext b3)

/-- The second output's stored value along sample `p`: the last round's output vector. -/
theorem payS_apply (x0 : FVec Ideal S2x4096x256 .f32) (x1 : FVec Ideal S2x1x4096 .f32) (p : Fin 2) (d : Fin 256)
    (mk : Fin 4096 → EReal) (xk : Fin 4096 → Fin 256 → EReal)
    (h1 : ∀ k : Fin 4096, x1 (ix3 p (0 : Fin 1) k) = mk k) (h0 : ∀ (k : Fin 4096) (e : Fin 256), x0 (ix3 p k e) = xk k e) :
    vS (F := Ideal) x0 (vM x1) (vB x0 (vM x1) (vB x0 (vM x1) vzero)) (ix3 p (0 : Fin 1) d) = sOutK mk xk d := by
  have hM : ∀ k : Fin 4096, vM (F := Ideal) x1 (ix3 p (0 : Fin 1) k) = mk k := fun k => (vM_apply x1 p k).trans (h1 k)
  have b1 := vB_row x0 (vM x1) p mk xk hM h0 vzero (fun _ => 0) (fun k => vzero_apply p k)
  have b2 := vB_row x0 (vM x1) p mk xk hM h0 _ _ b1
  exact vS_row x0 (vM x1) p mk xk hM h0 _ _ b2 d

/-- The sample a block's row `p` at point `t` holds. -/
theorem sample_of (t : Fin cfg0.N) (p : Fin 2) : ∃ β : Fin 64, β.val = 2 * t.val + p.val :=
  ⟨⟨2 * t.val + p.val, by have h : t.val < 32 := lt_of_lt_of_eq t.isLt N_0; omega⟩, rfl⟩

/-- What point `t` writes back to window 2's array is its block of the coupling weights. -/
theorem flushed2_eq (c : Dev nD) (t : Fin cfg0.N) :
    (dats m 0 c).flushed 2 t = ((cfg0.win 2).blk t).view.read (Elt Ideal)
      (GWa (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S2x4096x256) hz, View.ld_unit_zero (S := S2x1x4096) hz]
  rw [pay_w]
  funext j
  obtain ⟨p, a, n, rfl⟩ : ∃ (p : Fin 2) (a : Fin 1) (n : Fin 4096), j = ix3 p a n := ⟨j 0, j 1, j 2, eq_ix3 j⟩
  obtain rfl : a = 0 := Subsingleton.elim _ _
  obtain ⟨β, hβ⟩ := sample_of t p
  have hemb : ((cfg0.win 2).blk t).view.emb (ix3 p (0 : Fin 1) n) = ix3 β (0 : Fin 1) n := by
    obtain ⟨-, -, -, -, -, -, h0, h1, h2, -⟩ := idx_facts t
    funext a; apply Fin.ext
    match a with
    | ⟨0, _⟩ => show win0_2.index t (0 : Fin 3) * 2 + 1 * p.val = β.val; rw [h0, hβ]; omega
    | ⟨1, _⟩ => show win0_2.index t (1 : Fin 3) * 1 + 1 * 0 = 0; rw [h1]
    | ⟨2, _⟩ => show win0_2.index t (2 : Fin 3) * 4096 + 1 * n.val = n.val; rw [h2]; omega
  show vsoft (F := Ideal) _ (ix3 p (0 : Fin 1) n) = GWa _ _ (((cfg0.win 2).blk t).view.emb (ix3 p (0 : Fin 1) n))
  rw [hemb, GWa_apply]
  exact payW_apply (iblk m c 0 t) (iblk m c 1 t) p n _ _ (fun k => iblk1_apply m c t p 0 k β hβ)
    (fun k e => iblk0_apply m c t p k e β hβ)

/-- What point `t` writes back to window 3's array is its block of the output vectors. -/
theorem flushed3_eq (c : Dev nD) (t : Fin cfg0.N) :
    (dats m 0 c).flushed 3 t = ((cfg0.win 3).blk t).view.read (Elt Ideal)
      (GSa (m ((c : Thread nD τ).loc main_arg0)) (m ((c : Thread nD τ).loc main_arg1))) := by
  show (cfg0.win 3).cut (grid0.coords t) ((dats m 0 c).after 3 t) = _
  rw [after0_3]
  unfold out0_3
  rw [View.canon_unit_zero hz]
  simp only [View.ld_unit_zero (S := S2x4096x256) hz, View.ld_unit_zero (S := S2x1x4096) hz]
  rw [pay_s]
  funext j
  obtain ⟨p, a, d, rfl⟩ : ∃ (p : Fin 2) (a : Fin 1) (d : Fin 256), j = ix3 p a d := ⟨j 0, j 1, j 2, eq_ix3 j⟩
  obtain rfl : a = 0 := Subsingleton.elim _ _
  obtain ⟨β, hβ⟩ := sample_of t p
  have hemb : ((cfg0.win 3).blk t).view.emb (ix3 p (0 : Fin 1) d) = ix3 β (0 : Fin 1) d := by
    obtain ⟨-, -, -, -, -, -, -, -, -, h0, h1, h2⟩ := idx_facts t
    funext a; apply Fin.ext
    match a with
    | ⟨0, _⟩ => show win0_3.index t (0 : Fin 3) * 2 + 1 * p.val = β.val; rw [h0, hβ]; omega
    | ⟨1, _⟩ => show win0_3.index t (1 : Fin 3) * 1 + 1 * 0 = 0; rw [h1]
    | ⟨2, _⟩ => show win0_3.index t (2 : Fin 3) * 256 + 1 * d.val = d.val; rw [h2]; omega
  show vS (F := Ideal) _ _ _ (ix3 p (0 : Fin 1) d) = GSa _ _ (((cfg0.win 3).blk t).view.emb (ix3 p (0 : Fin 1) d))
  rw [hemb, GSa_apply]
  exact payS_apply (iblk m c 0 t) (iblk m c 1 t) p d _ _ (fun k => iblk1_apply m c t p 0 k β hβ)
    (fun k e => iblk0_apply m c t p k e β hβ)

/-! ## The output windows' arrays after the run -/

theorem final2 (c : Dev nD) :
    (dats m 0 c).arrAt 2 cfg0.N = GWa (m ((c : Thread nD τ).loc main_arg0)) (m ((c : Thread nD τ).loc main_arg1)) :=
  (dats m 0 c).arrAt_eq_of_cover 2 _ (fun t _ => flushed2_eq m c t) cover2

theorem final3 (c : Dev nD) :
    (dats m 0 c).arrAt 3 cfg0.N = GSa (m ((c : Thread nD τ).loc main_arg0)) (m ((c : Thread nD τ).loc main_arg1)) :=
  (dats m 0 c).arrAt_eq_of_cover 3 _ (fun t _ => flushed3_eq m c t) cover3

/-! ## The two reshapes after the region -/

/-- The first result: the reshape `[64, 1, 4096] → [64, 4096]` of window 2's array. -/
theorem post_v2 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v2)
      = GW (m ((c : Thread nD τ).loc main_arg0)) (m ((c : Thread nD τ).loc main_arg1)) := by
  rw [(h c).2 main_v2 (Pipeline.mem_restRefs_of main_v2 (by decide) (by decide))]
  unfold Pipeline.afterTail₀
  show StableHlo.after hostOps1 _ (Proc.devRef .tc main_v2) = _
  after_results
  have e : (Pipeline.withArrays (cfgs 0).spec c (V0 m c) (fun w => (dats m 0 c).arrAt w (cfgs 0).N) (Proc.devRef .tc main_v1_0) : S64x1x4096.Idx → EReal)
      = GWa (m ((c : Thread nD τ).loc main_arg0)) (m ((c : Thread nD τ).loc main_arg1)) :=
    (Pipeline.withArrays_arr spec0 launch0.win.arr_inj c _ _ 2).trans (final2 m c)
  funext i
  obtain ⟨β, n, rfl⟩ : ∃ (β : Fin 64) (n : Fin 4096), i = ix2 β n := ⟨i 0, i 1, eq_ix2 i⟩
  rw [GW_apply]
  show shapeCast S64x4096 (Pipeline.withArrays (cfgs 0).spec c (V0 m c) (fun w => (dats m 0 c).arrAt w (cfgs 0).N) (Proc.devRef .tc main_v1_0) : S64x1x4096.Idx → EReal)
    shapeCasts_S64x1x4096_S64x4096 (ix2 β n) = _
  rw [e]
  refine (shapeCast_apply _ shapeCasts_S64x1x4096_S64x4096 _ (ix3 β (0 : Fin 1) n) ?_).trans (GWa_apply _ _ β 0 n)
  rewrite [Shape.rowMajor_val_three, Shape.rowMajor_val_two]
  show (β.val * 1 + 0) * 4096 + n.val = β.val * 4096 + n.val
  omega

/-- The second result: the reshape `[64, 1, 256] → [64, 256]` of window 3's array. -/
theorem post_v3 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v3)
      = GS (m ((c : Thread nD τ).loc main_arg0)) (m ((c : Thread nD τ).loc main_arg1)) := by
  rw [(h c).2 main_v3 (Pipeline.mem_restRefs_of main_v3 (by decide) (by decide))]
  unfold Pipeline.afterTail₀
  show StableHlo.after hostOps1 _ (Proc.devRef .tc main_v3) = _
  after_results
  have e : (Pipeline.withArrays (cfgs 0).spec c (V0 m c) (fun w => (dats m 0 c).arrAt w (cfgs 0).N) (Proc.devRef .tc main_v1_1) : S64x1x256.Idx → EReal)
      = GSa (m ((c : Thread nD τ).loc main_arg0)) (m ((c : Thread nD τ).loc main_arg1)) :=
    (Pipeline.withArrays_arr spec0 launch0.win.arr_inj c _ _ 3).trans (final3 m c)
  funext i
  obtain ⟨β, d, rfl⟩ : ∃ (β : Fin 64) (d : Fin 256), i = ix2 β d := ⟨i 0, i 1, eq_ix2 i⟩
  rw [GS_apply]
  show shapeCast S64x256 (Pipeline.withArrays (cfgs 0).spec c (V0 m c) (fun w => (dats m 0 c).arrAt w (cfgs 0).N) (Proc.devRef .tc main_v1_1) : S64x1x256.Idx → EReal)
    shapeCasts_S64x1x256_S64x256 (ix2 β d) = _
  rw [e]
  refine (shapeCast_apply _ shapeCasts_S64x1x256_S64x256 _ (ix3 β (0 : Fin 1) d) ?_).trans (GSa_apply _ _ β 0 d)
  rewrite [Shape.rowMajor_val_three, Shape.rowMajor_val_two]
  show (β.val * 1 + 0) * 256 + d.val = β.val * 256 + d.val
  omega

/-! ## The run, read -/

/-- The kernel program's run: the two results are the coupling weights and the output vectors of every sample, as
    functions of the two argument arrays, which it leaves as they were. -/
theorem ker_run : θ_run (defs (F := Ideal)) (onTc (τ := τ) (main (F := Ideal))) ⟨m, fun _ => 0, ρ⟩ fun r => ∀ c : Dev nD,
      r.2.mem ((c.tc : Thread nD τ).loc main_v2) = Cert.Routing.GW (m ((c.tc : Thread nD τ).loc main_arg0)) (m ((c.tc : Thread nD τ).loc main_arg1))
      ∧ r.2.mem ((c.tc : Thread nD τ).loc main_v3) = Cert.Routing.GS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨post_v2 m r h c, post_v3 m r h c,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Value

end
-- ==== Proof.lean ====
/-
  The kernel keeps each sample's 4096 × 256 vectors in fast memory and runs three rounds of routing by agreement on them;
  the reference does the same rounds with whole-array operations. Read at the extended reals both return, for every sample,
  the softmax of the logits after three rounds and the squashed vector of the third round. They spell a round differently in
  three places — where the mask multiplies the weighted sum, whether the squared norm is a sum of squares or the square of
  its root, and whether the mask multiplies the agreement sum or its terms — and these agree as soon as every quantity is a
  real number, which the finiteness of the inputs gives round after round (a sum of exponentials is positive, one plus a
  square is positive, a norm plus the small constant is positive, so no quotient meets a zero divisor).
  The five claims: the three programs run and leave their arguments alone; the idealized kernel is the kernel's own text
  (nothing was rewritten); and the two idealized programs return equal arrays.
-/
import proofs.«102877_j26946624815393_2_alg».proof.Defs
import proofs.«102877_j26946624815393_2_alg».proof.Proof.Gen.Kernel
import proofs.«102877_j26946624815393_2_alg».proof.Proof.Gen.Kernel.Frame
import proofs.«102877_j26946624815393_2_alg».proof.Proof.Gen.KernelIdeal
import proofs.«102877_j26946624815393_2_alg».proof.Proof.Gen.KernelIdeal.Frame
import proofs.«102877_j26946624815393_2_alg».proof.Proof.Gen.ReferenceIdeal
import proofs.«102877_j26946624815393_2_alg».proof.Proof.Gen.Pre_finite_inputs
import proofs.«102877_j26946624815393_2_alg».proof.Proof.RoutingDefs
import proofs.«102877_j26946624815393_2_alg».proof.Proof.RoutingMath
import proofs.«102877_j26946624815393_2_alg».proof.Proof.RoutingBatch
import proofs.«102877_j26946624815393_2_alg».proof.Proof.PreFinite
import proofs.«102877_j26946624815393_2_alg».proof.Proof.RefRead
import proofs.«102877_j26946624815393_2_alg».proof.Proof.RefRun
import proofs.«102877_j26946624815393_2_alg».proof.Proof.RefValue
import proofs.«102877_j26946624815393_2_alg».proof.Proof.KerBody
import proofs.«102877_j26946624815393_2_alg».proof.Proof.KerRead
import proofs.«102877_j26946624815393_2_alg».proof.Proof.KerValue

noncomputable section

namespace Cert.Proof

open Idealize.ShloMosaic Idealize.ShloMosaic.ValueIdx Idealize.SL.Sem Cert.Routing

/-- On finite arrays the reference's weights are the kernel's, sample by sample. -/
theorem ref_weights_eq (a0 : (⟨3, ![64, 4096, 256]⟩ : Shape).Idx → EReal) (a1 : (⟨3, ![64, 4096, 1]⟩ : Shape).Idx → EReal)
    (h0 : ∀ i, IsReal (a0 i)) (h1 : ∀ i, IsReal (a1 i)) :
    Cert.ReferenceIdeal.ReadP.val_main_v111 (F := Ideal) a0 a1 = GW a0 a1 := by
  funext i
  obtain ⟨β, n, rfl⟩ : ∃ (β : Fin 64) (n : Fin 4096), i = ix2 β n := ⟨i 0, i 1, eq_ix2 i⟩
  rw [Cert.ReferenceIdeal.RefValue.ref_w, GW_apply]
  exact (congrFun (routing_eq (maskOf a1 _) (vecsOf a0 _) (fun n => h1 _) (fun n d => h0 _)).1 _).symm

/-- On finite arrays the reference's output vectors are the kernel's, sample by sample. -/
theorem ref_vectors_eq (a0 : (⟨3, ![64, 4096, 256]⟩ : Shape).Idx → EReal) (a1 : (⟨3, ![64, 4096, 1]⟩ : Shape).Idx → EReal)
    (h0 : ∀ i, IsReal (a0 i)) (h1 : ∀ i, IsReal (a1 i)) :
    Cert.ReferenceIdeal.ReadP.val_main_v110 (F := Ideal) a0 a1 = GS a0 a1 := by
  funext i
  obtain ⟨β, d, rfl⟩ : ∃ (β : Fin 64) (d : Fin 256), i = ix2 β d := ⟨i 0, i 1, eq_ix2 i⟩
  rw [Cert.ReferenceIdeal.RefValue.ref_s, GS_apply]
  exact (congrFun (routing_eq (maskOf a1 _) (vecsOf a0 _) (fun n => h1 _) (fun n d => h0 _)).2 _).symm

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both idealized programs end with the coupling weights `GW` and the output vectors `GS` of the kernel's arguments. -/
theorem algebraic : Cert.algebraic_KernelIdeal_ReferenceIdeal := by
  intro m ρ m' ρ' hpre hagree
  refine ⟨fun c => GW (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => GS (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Value.ker_run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1⟩ := Cert.Pre_finite_inputs.Finite.isReal_of_pre _ _ (hpre c)
    unfold Cert.ReferenceIdeal.ValueP.res_main_v111
    rw [(hagree c).1, (hagree c).2]
    exact ref_weights_eq _ _ h0 h1
  · obtain ⟨h0, h1⟩ := Cert.Pre_finite_inputs.Finite.isReal_of_pre _ _ (hpre c)
    unfold Cert.ReferenceIdeal.ValueP.res_main_v110
    rw [(hagree c).1, (hagree c).2]
    exact ref_vectors_eq _ _ h0 h1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
